-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.truncf_extf.Statement Cert.KernelIdeal.S16384x5 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x15 : Shape := ⟨2, ![524288, 15]⟩
abbrev S30x15 : Shape := ⟨2, ![30, 15]⟩
abbrev S30 : Shape := ⟨1, ![30]⟩
abbrev S60x30 : Shape := ⟨2, ![60, 30]⟩
abbrev S60 : Shape := ⟨1, ![60]⟩
abbrev S90x60 : Shape := ⟨2, ![90, 60]⟩
abbrev S90 : Shape := ⟨1, ![90]⟩
abbrev S120x90 : Shape := ⟨2, ![120, 90]⟩
abbrev S120 : Shape := ⟨1, ![120]⟩
abbrev S90x120 : Shape := ⟨2, ![90, 120]⟩
abbrev S60x90 : Shape := ⟨2, ![60, 90]⟩
abbrev S30x60 : Shape := ⟨2, ![30, 60]⟩
abbrev S15x30 : Shape := ⟨2, ![15, 30]⟩
abbrev S15 : Shape := ⟨1, ![15]⟩
abbrev S10x15 : Shape := ⟨2, ![10, 15]⟩
abbrev S10 : Shape := ⟨1, ![10]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩

class Facts : Prop where
  bcast_S_S524288x15 : S_.BroadcastsInDim S524288x15 (![] : Fin 0 → Fin S524288x15.rank)
  reducesTo_S524288x15_S_d0_1 : S524288x15.ReducesTo [0, 1] S_
  h_S_ : 0 < S_.numel
  bcast_S_S30x15 : S_.BroadcastsInDim S30x15 (![] : Fin 0 → Fin S30x15.rank)
  reducesTo_S30x15_S_d0_1 : S30x15.ReducesTo [0, 1] S_
  bcast_S_S30 : S_.BroadcastsInDim S30 (![] : Fin 0 → Fin S30.rank)
  reducesTo_S30_S_d0 : S30.ReducesTo [0] S_
  bcast_S_S60x30 : S_.BroadcastsInDim S60x30 (![] : Fin 0 → Fin S60x30.rank)
  reducesTo_S60x30_S_d0_1 : S60x30.ReducesTo [0, 1] S_
  bcast_S_S60 : S_.BroadcastsInDim S60 (![] : Fin 0 → Fin S60.rank)
  reducesTo_S60_S_d0 : S60.ReducesTo [0] S_
  bcast_S_S90x60 : S_.BroadcastsInDim S90x60 (![] : Fin 0 → Fin S90x60.rank)
  reducesTo_S90x60_S_d0_1 : S90x60.ReducesTo [0, 1] S_
  bcast_S_S90 : S_.BroadcastsInDim S90 (![] : Fin 0 → Fin S90.rank)
  reducesTo_S90_S_d0 : S90.ReducesTo [0] S_
  bcast_S_S120x90 : S_.BroadcastsInDim S120x90 (![] : Fin 0 → Fin S120x90.rank)
  reducesTo_S120x90_S_d0_1 : S120x90.ReducesTo [0, 1] S_
  bcast_S_S120 : S_.BroadcastsInDim S120 (![] : Fin 0 → Fin S120.rank)
  reducesTo_S120_S_d0 : S120.ReducesTo [0] S_
  bcast_S_S90x120 : S_.BroadcastsInDim S90x120 (![] : Fin 0 → Fin S90x120.rank)
  reducesTo_S90x120_S_d0_1 : S90x120.ReducesTo [0, 1] S_
  bcast_S_S60x90 : S_.BroadcastsInDim S60x90 (![] : Fin 0 → Fin S60x90.rank)
  reducesTo_S60x90_S_d0_1 : S60x90.ReducesTo [0, 1] S_
  bcast_S_S30x60 : S_.BroadcastsInDim S30x60 (![] : Fin 0 → Fin S30x60.rank)
  reducesTo_S30x60_S_d0_1 : S30x60.ReducesTo [0, 1] S_
  bcast_S_S15x30 : S_.BroadcastsInDim S15x30 (![] : Fin 0 → Fin S15x30.rank)
  reducesTo_S15x30_S_d0_1 : S15x30.ReducesTo [0, 1] S_
  bcast_S_S15 : S_.BroadcastsInDim S15 (![] : Fin 0 → Fin S15.rank)
  reducesTo_S15_S_d0 : S15.ReducesTo [0] S_
  bcast_S_S10x15 : S_.BroadcastsInDim S10x15 (![] : Fin 0 → Fin S10x15.rank)
  reducesTo_S10x15_S_d0_1 : S10x15.ReducesTo [0, 1] S_
  bcast_S_S10 : S_.BroadcastsInDim S10 (![] : Fin 0 → Fin S10.rank)
  reducesTo_S10_S_d0 : S10.ReducesTo [0] S_
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x5 .f32) (main_arg22 : FVec F S1 .f32) (main_v98 : IVec S_ 1) (main_v101 : IVec S5 1) (main_c_39 : IVec S_ 1) : IVec S_ 1 :=
  let main_v102 : IVec S_ 1 := (fun x v => Host.reduce IntOp.andi x v reducesTo_S5_S_d0 h_S_) main_v101 main_c_39
  let main_v103 : IVec S_ 1 := andi main_v98 main_v102
  let main_v104 : FVec F S1x5 .f32 := Host.absf main_arg21
  let main_cst_40 : FVec F S_ .f32 := constant S_ .f32 0x7F800000#32
  let main_v105 : FVec F S1x5 .f32 := broadcastInDim S1x5 ![] bcast_S_S1x5 main_cst_40
  let main_v106 : IVec S1x5 1 := cmpf .olt main_v104 main_v105
  let main_c_41 : IVec S_ 1 := constantI S_ 1 1#1
  let main_v107 : IVec S_ 1 := (fun x v => Host.reduce IntOp.andi x v reducesTo_S1x5_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S10 .f32) (main_arg19 : FVec F S5x10 .f32) (main_arg20 : FVec F S5 .f32) (main_arg21 : FVec F S1x5 .f32) (main_arg22 : FVec F S1 .f32) (main_v83 : IVec S_ 1) (main_v84 : FVec F S10x15 .f32) (main_cst_32 : FVec F S_ .f32) : IVec S_ 1 :=
  let main_v85 : FVec F S10x15 .f32 := broadcastInDim S10x15 ![] bcast_S_S10x15 main_cst_32
  let main_v86 : IVec S10x15 1 := cmpf .olt main_v84 main_v85
  let main_c_33 : IVec S_ 1 := constantI S_ 1 1#1
  let main_v87 : IVec S_ 1 := (fun x v => Host.reduce IntOp.andi x v reducesTo_S10x15_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S5x10 .f32 := Host.absf main_arg19
  let main_cst_36 : FVec F S_ .f32 := constant S_ .f32 0x7F800000#32
  let main_v95 : FVec F S5x10 .f32 := broadcastInDim S5x10 ![] bcast_S_S5x10 main_cst_36
  let main_v96 : IVec S5x10 1 := cmpf .olt main_v94 main_v95
  let main_c_37 : IVec S_ 1 := constantI S_ 1 1#1
  let main_v97 : IVec S_ 1 := (fun x v => Host.reduce IntOp.andi x v reducesTo_S5x10_S_d0_1 h_S_) main_v96 main_c_37
  let main_v98 : IVec S_ 1 := andi main_v93 main_v97
  let main_v99 : FVec F S5 .f32 := Host.absf main_arg20
  let main_cst_38 : FVec F S_ .f32 := constant S_ .f32 0x7F800000#32
  let main_v100 : FVec F S5 .f32 := broadcastInDim S5 ![] bcast_S_S5 main_cst_38
  let main_v101 : IVec S5 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S30 .f32) (main_arg15 : FVec F S15x30 .f32) (main_arg16 : FVec F S15 .f32) (main_arg17 : FVec F S10x15 .f32) (main_arg18 : FVec F S10 .f32) (main_arg19 : FVec F S5x10 .f32) (main_arg20 : FVec F S5 .f32) (main_arg21 : FVec F S1x5 .f32) (main_arg22 : FVec F S1 .f32) (main_v63 : IVec S_ 1) (main_v67 : IVec S_ 1) : IVec S_ 1 :=
  let main_v68 : IVec S_ 1 := andi main_v63 main_v67
  let main_v69 : FVec F S30 .f32 := Host.absf main_arg14
  let main_cst_26 : FVec F S_ .f32 := constant S_ .f32 0x7F800000#32
  let main_v70 : FVec F S30 .f32 := broadcastInDim S30 ![] bcast_S_S30 main_cst_26
  let main_v71 : IVec S30 1 := cmpf .olt main_v69 main_v70
  let main_c_27 : IVec S_ 1 := constantI S_ 1 1#1
  let main_v72 : IVec S_ 1 := (fun x v => Host.reduce IntOp.andi x v reducesTo_S30_S_d0 h_S_) main_v71 main_c_27
  let main_v73 : IVec S_ 1 := andi main_v68 main_v72
  let main_v74 : FVec F S15x30 .f32 := Host.absf main_arg15
  let main_cst_28 : FVec F S_ .f32 := constant S_ .f32 0x7F800000#32
  let main_v75 : FVec F S15x30 .f32 := broadcastInDim S15x30 ![] bcast_S_S15x30 main_cst_28
  let main_v76 : IVec S15x30 1 := cmpf .olt main_v74 main_v75
  let main_c_29 : IVec S_ 1 := constantI S_ 1 1#1
  let main_v77 : IVec S_ 1 := (fun x v => Host.reduce IntOp.andi x v reducesTo_S15x30_S_d0_1 h_S_) main_v76 main_c_29
  let main_v78 : IVec S_ 1 := andi main_v73 main_v77
  let main_v79 : FVec F S15 .f32 := Host.absf main_arg16
  let main_cst_30 : FVec F S_ .f32 := constant S_ .f32 0x7F800000#32
  let main_v80 : FVec F S15 .f32 := broadcastInDim S15 ![] bcast_S_S15 main_cst_30
  let main_v81 : IVec S15 1 := cmpf .olt main_v79 main_v80
  let main_c_31 : IVec S_ 1 := constantI S_ 1 1#1
  let main_v82 : IVec S_ 1 := (fun x v => Host.reduce IntOp.andi x v reducesTo_S15_S_d0 h_S_) main_v81 main_c_31
  let main_v83 : IVec S_ 1 := andi main_v78 main_v82
  let main_v84 : FVec F S10x15 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S60x90 .f32) (main_arg12 : FVec F S60 .f32) (main_arg13 : FVec F S30x60 .f32) (main_arg14 : FVec F S30 .f32) (main_arg15 : FVec F S15x30 .f32) (main_arg16 : FVec F S15 .f32) (main_arg17 : FVec F S10x15 .f32) (main_arg18 : FVec F S10 .f32) (main_arg19 : FVec F S5x10 .f32) (main_arg20 : FVec F S5 .f32) (main_arg21 : FVec F S1x5 .f32) (main_arg22 : FVec F S1 .f32) (main_v48 : IVec S_ 1) (main_v49 : FVec F S90 .f32) (main_v50 : FVec F S90 .f32) : IVec S_ 1 :=
  let main_v51 : IVec S90 1 := cmpf .olt main_v49 main_v50
  let main_c_19 : IVec S_ 1 := constantI S_ 1 1#1
  let main_v52 : IVec S_ 1 := (fun x v => Host.reduce IntOp.andi x v reducesTo_S90_S_d0 h_S_) main_v51 main_c_19
  let main_v53 : IVec S_ 1 := andi main_v48 main_v52
  let main_v54 : FVec F S60x90 .f32 := Host.absf main_arg11
  let main_cst_20 : FVec F S_ .f32 := constant S_ .f32 0x7F800000#32
  let main_v55 : FVec F S60x90 .f32 := broadcastInDim S60x90 ![] bcast_S_S60x90 main_cst_20
  let main_v56 : IVec S60x90 1 := cmpf .olt main_v54 main_v55
  let main_c_21 : IVec S_ 1 := constantI S_ 1 1#1
  let main_v57 : IVec S_ 1 := (fun x v => Host.reduce IntOp.andi x v reducesTo_S60x90_S_d0_1 h_S_) main_v56 main_c_21
  let main_v58 : IVec S_ 1 := andi main_v53 main_v57
  let main_v59 : FVec F S60 .f32 := Host.absf main_arg12
  let main_cst_22 : FVec F S_ .f32 := constant S_ .f32 0x7F800000#32
  let main_v60 : FVec F S60 .f32 := broadcastInDim S60 ![] bcast_S_S60 main_cst_22
  let main_v61 : IVec S60 1 := cmpf .olt main_v59 main_v60
  let main_c_23 : IVec S_ 1 := constantI S_ 1 1#1
  let main_v62 : IVec S_ 1 := (fun x v => Host.reduce IntOp.andi x v reducesTo_S60_S_d0 h_S_) main_v61 main_c_23
  let main_v63 : IVec S_ 1 := andi main_v58 main_v62
  let main_v64 : FVec F S30x60 .f32 := Host.absf main_arg13
  let main_cst_24 : FVec F S_ .f32 := constant S_ .f32 0x7F800000#32
  let main_v65 : FVec F S30x60 .f32 := broadcastInDim S30x60 ![] bcast_S_S30x60 main_cst_24
  let main_v66 : IVec S30x60 1 := cmpf .olt main_v64 main_v65
  let main_c_25 : IVec S_ 1 := constantI S_ 1 1#1
  let main_v67 : IVec S_ 1 := (fun x v => Host.reduce IntOp.andi x v reducesTo_S30x60_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S120x90 .f32) (main_arg8 : FVec F S120 .f32) (main_arg9 : FVec F S90x120 .f32) (main_arg10 : FVec F S90 .f32) (main_arg11 : FVec F S60x90 .f32) (main_arg12 : FVec F S60 .f32) (main_arg13 : FVec F S30x60 .f32) (main_arg14 : FVec F S30 .f32) (main_arg15 : FVec F S15x30 .f32) (main_arg16 : FVec F S15 .f32) (main_arg17 : FVec F S10x15 .f32) (main_arg18 : FVec F S10 .f32) (main_arg19 : FVec F S5x10 .f32) (main_arg20 : FVec F S5 .f32) (main_arg21 : FVec F S1x5 .f32) (main_arg22 : FVec F S1 .f32) (main_v33 : IVec S_ 1) : IVec S_ 1 :=
  let main_v34 : FVec F S120x90 .f32 := Host.absf main_arg7
  let main_cst_12 : FVec F S_ .f32 := constant S_ .f32 0x7F800000#32
  let main_v35 : FVec F S120x90 .f32 := broadcastInDim S120x90 ![] bcast_S_S120x90 main_cst_12
  let main_v36 : IVec S120x90 1 := cmpf .olt main_v34 main_v35
  let main_c_13 : IVec S_ 1 := constantI S_ 1 1#1
  let main_v37 : IVec S_ 1 := (fun x v => Host.reduce IntOp.andi x v reducesTo_S120x90_S_d0_1 h_S_) main_v36 main_c_13
  let main_v38 : IVec S_ 1 := andi main_v33 main_v37
  let main_v39 : FVec F S120 .f32 := Host.absf main_arg8
  let main_cst_14 : FVec F S_ .f32 := constant S_ .f32 0x7F800000#32
  let main_v40 : FVec F S120 .f32 := broadcastInDim S120 ![] bcast_S_S120 main_cst_14
  let main_v41 : IVec S120 1 := cmpf .olt main_v39 main_v40
  let main_c_15 : IVec S_ 1 := constantI S_ 1 1#1
  let main_v42 : IVec S_ 1 := (fun x v => Host.reduce IntOp.andi x v reducesTo_S120_S_d0 h_S_) main_v41 main_c_15
  let main_v43 : IVec S_ 1 := andi main_v38 main_v42
  let main_v44 : FVec F S90x120 .f32 := Host.absf main_arg9
  let main_cst_16 : FVec F S_ .f32 := constant S_ .f32 0x7F800000#32
  let main_v45 : FVec F S90x120 .f32 := broadcastInDim S90x120 ![] bcast_S_S90x120 main_cst_16
  let main_v46 : IVec S90x120 1 := cmpf .olt main_v44 main_v45
  let main_c_17 : IVec S_ 1 := constantI S_ 1 1#1
  let main_v47 : IVec S_ 1 := (fun x v => Host.reduce IntOp.andi x v reducesTo_S90x120_S_d0_1 h_S_) main_v46 main_c_17
  let main_v48 : IVec S_ 1 := andi main_v43 main_v47
  let main_v49 : FVec F S90 .f32 := Host.absf main_arg10
  let main_cst_18 : FVec F S_ .f32 := constant S_ .f32 0x7F800000#32
  let main_v50 : FVec F S90 .f32 := broadcastInDim S90 ![] bcast_S_S90 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S60 .f32) (main_arg5 : FVec F S90x60 .f32) (main_arg6 : FVec F S90 .f32) (main_arg7 : FVec F S120x90 .f32) (main_arg8 : FVec F S120 .f32) (main_arg9 : FVec F S90x120 .f32) (main_arg10 : FVec F S90 .f32) (main_arg11 : FVec F S60x90 .f32) (main_arg12 : FVec F S60 .f32) (main_arg13 : FVec F S30x60 .f32) (main_arg14 : FVec F S30 .f32) (main_arg15 : FVec F S15x30 .f32) (main_arg16 : FVec F S15 .f32) (main_arg17 : FVec F S10x15 .f32) (main_arg18 : FVec F S10 .f32) (main_arg19 : FVec F S5x10 .f32) (main_arg20 : FVec F S5 .f32) (main_arg21 : FVec F S1x5 .f32) (main_arg22 : FVec F S1 .f32) (main_v13 : IVec S_ 1) (main_v16 : IVec S60x30 1) : IVec S_ 1 :=
  let main_c_5 : IVec S_ 1 := constantI S_ 1 1#1
  let main_v17 : IVec S_ 1 := (fun x v => Host.reduce IntOp.andi x v reducesTo_S60x30_S_d0_1 h_S_) main_v16 main_c_5
  let main_v18 : IVec S_ 1 := andi main_v13 main_v17
  let main_v19 : FVec F S60 .f32 := Host.absf main_arg4
  let main_cst_6 : FVec F S_ .f32 := constant S_ .f32 0x7F800000#32
  let main_v20 : FVec F S60 .f32 := broadcastInDim S60 ![] bcast_S_S60 main_cst_6
  let main_v21 : IVec S60 1 := cmpf .olt main_v19 main_v20
  let main_c_7 : IVec S_ 1 := constantI S_ 1 1#1
  let main_v22 : IVec S_ 1 := (fun x v => Host.reduce IntOp.andi x v reducesTo_S60_S_d0 h_S_) main_v21 main_c_7
  let main_v23 : IVec S_ 1 := andi main_v18 main_v22
  let main_v24 : FVec F S90x60 .f32 := Host.absf main_arg5
  let main_cst_8 : FVec F S_ .f32 := constant S_ .f32 0x7F800000#32
  let main_v25 : FVec F S90x60 .f32 := broadcastInDim S90x60 ![] bcast_S_S90x60 main_cst_8
  let main_v26 : IVec S90x60 1 := cmpf .olt main_v24 main_v25
  let main_c_9 : IVec S_ 1 := constantI S_ 1 1#1
  let main_v27 : IVec S_ 1 := (fun x v => Host.reduce IntOp.andi x v reducesTo_S90x60_S_d0_1 h_S_) main_v26 main_c_9
  let main_v28 : IVec S_ 1 := andi main_v23 main_v27
  let main_v29 : FVec F S90 .f32 := Host.absf main_arg6
  let main_cst_10 : FVec F S_ .f32 := constant S_ .f32 0x7F800000#32
  let main_v30 : FVec F S90 .f32 := broadcastInDim S90 ![] bcast_S_S90 main_cst_10
  let main_v31 : IVec S90 1 := cmpf .olt main_v29 main_v30
  let main_c_11 : IVec S_ 1 := constantI S_ 1 1#1
  let main_v32 : IVec S_ 1 := (fun x v => Host.reduce IntOp.andi x v reducesTo_S90_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S524288x15 .f32) (main_arg1 : FVec F S30x15 .f32) (main_arg2 : FVec F S30 .f32) (main_arg3 : FVec F S60x30 .f32) (main_arg4 : FVec F S60 .f32) (main_arg5 : FVec F S90x60 .f32) (main_arg6 : FVec F S90 .f32) (main_arg7 : FVec F S120x90 .f32) (main_arg8 : FVec F S120 .f32) (main_arg9 : FVec F S90x120 .f32) (main_arg10 : FVec F S90 .f32) (main_arg11 : FVec F S60x90 .f32) (main_arg12 : FVec F S60 .f32) (main_arg13 : FVec F S30x60 .f32) (main_arg14 : FVec F S30 .f32) (main_arg15 : FVec F S15x30 .f32) (main_arg16 : FVec F S15 .f32) (main_arg17 : FVec F S10x15 .f32) (main_arg18 : FVec F S10 .f32) (main_arg19 : FVec F S5x10 .f32) (main_arg20 : FVec F S5 .f32) (main_arg21 : FVec F S1x5 .f32) (main_arg22 : FVec F S1 .f32) : IVec S_ 1 :=
  let main_v0 : FVec F S524288x15 .f32 := Host.absf main_arg0
  let main_cst : FVec F S_ .f32 := constant S_ .f32 0x7F800000#32
  let main_v1 : FVec F S524288x15 .f32 := broadcastInDim S524288x15 ![] bcast_S_S524288x15 main_cst
  let main_v2 : IVec S524288x15 1 := cmpf .olt main_v0 main_v1
  let main_c : IVec S_ 1 := constantI S_ 1 1#1
  let main_v3 : IVec S_ 1 := (fun x v => Host.reduce IntOp.andi x v reducesTo_S524288x15_S_d0_1 h_S_) main_v2 main_c
  let main_v4 : FVec F S30x15 .f32 := Host.absf main_arg1
  let main_cst_0 : FVec F S_ .f32 := constant S_ .f32 0x7F800000#32
  let main_v5 : FVec F S30x15 .f32 := broadcastInDim S30x15 ![] bcast_S_S30x15 main_cst_0
  let main_v6 : IVec S30x15 1 := cmpf .olt main_v4 main_v5
  let main_c_1 : IVec S_ 1 := constantI S_ 1 1#1
  let main_v7 : IVec S_ 1 := (fun x v => Host.reduce IntOp.andi x v reducesTo_S30x15_S_d0_1 h_S_) main_v6 main_c_1
  let main_v8 : IVec S_ 1 := andi main_v3 main_v7
  let main_v9 : FVec F S30 .f32 := Host.absf main_arg2
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S60x30 .f32 := Host.absf main_arg3
  let main_cst_4 : FVec F S_ .f32 := constant S_ .f32 0x7F800000#32
  let main_v15 : FVec F S60x30 .f32 := broadcastInDim S60x30 ![] bcast_S_S60x30 main_cst_4
  let main_v16 : IVec S60x30 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S524288x15 : Shape := ⟨2, ![524288, 15]⟩
abbrev S30x15 : Shape := ⟨2, ![30, 15]⟩
abbrev S30 : Shape := ⟨1, ![30]⟩
abbrev S60x30 : Shape := ⟨2, ![60, 30]⟩
abbrev S60 : Shape := ⟨1, ![60]⟩
abbrev S90x60 : Shape := ⟨2, ![90, 60]⟩
abbrev S90 : Shape := ⟨1, ![90]⟩
abbrev S120x90 : Shape := ⟨2, ![120, 90]⟩
abbrev S120 : Shape := ⟨1, ![120]⟩
abbrev S90x120 : Shape := ⟨2, ![90, 120]⟩
abbrev S60x90 : Shape := ⟨2, ![60, 90]⟩
abbrev S30x60 : Shape := ⟨2, ![30, 60]⟩
abbrev S15x30 : Shape := ⟨2, ![15, 30]⟩
abbrev S15 : Shape := ⟨1, ![15]⟩
abbrev S10x15 : Shape := ⟨2, ![10, 15]⟩
abbrev S10 : Shape := ⟨1, ![10]⟩
abbrev S5x10 : Shape := ⟨2, ![5, 10]⟩
abbrev S5 : Shape := ⟨1, ![5]⟩
abbrev S1x5 : Shape := ⟨2, ![1, 5]⟩
abbrev S1 : Shape := ⟨1, ![1]⟩
abbrev S1x30 : Shape := ⟨2, ![1, 30]⟩
abbrev S1x60 : Shape := ⟨2, ![1, 60]⟩
abbrev S1x90 : Shape := ⟨2, ![1, 90]⟩
abbrev S1x120 : Shape := ⟨2, ![1, 120]⟩
abbrev S1x15 : Shape := ⟨2, ![1, 15]⟩
abbrev S15x10 : Shape := ⟨2, ![15, 10]⟩
abbrev S1x10 : Shape := ⟨2, ![1, 10]⟩
abbrev S10x5 : Shape := ⟨2, ![10, 5]⟩
abbrev S1x1 : Shape := ⟨2, ![1, 1]⟩
abbrev S1x524288 : Shape := ⟨2, ![1, 524288]⟩
abbrev S16384x15 : Shape := ⟨2, ![16384, 15]⟩
abbrev S1x16384 : Shape := ⟨2, ![1, 16384]⟩
abbrev S16384x30 : Shape := ⟨2, ![16384, 30]⟩
abbrev S16384x60 : Shape := ⟨2, ![16384, 60]⟩
abbrev S16384x90 : Shape := ⟨2, ![16384, 90]⟩
abbrev S16384x120 : Shape := ⟨2, ![16384, 120]⟩
abbrev S16384x10 : Shape := ⟨2, ![16384, 10]⟩
abbrev S16384x5 : Shape := ⟨2, ![16384, 5]⟩
abbrev S5x16384 : Shape := ⟨2, ![5, 16384]⟩
abbrev S524288x1 : Shape := ⟨2, ![524288, 1]⟩

abbrev nBuf : Space → Nat
  | .hbm => 57
  | .vmem => 26
  | .smem => 0
  | _ => 0

abbrev bufTy : (tb : Table) → Fin (tcTables nBuf tb) → BufTy
  | .hbm, ⟨0, _⟩ => ⟨S524288x15, .f32⟩
  | .hbm, ⟨1, _⟩ => ⟨S30x15, .f32⟩
  | .hbm, ⟨2, _⟩ => ⟨S30, .f32⟩
  | .hbm, ⟨3, _⟩ => ⟨S60x30, .f32⟩
  | .hbm, ⟨4, _⟩ => ⟨S60, .f32⟩
  | .hbm, ⟨5, _⟩ => ⟨S90x60, .f32⟩
  | .hbm, ⟨6, _⟩ => ⟨S90, .f32⟩
  | .hbm, ⟨7, _⟩ => ⟨S120x90, .f32⟩
  | .hbm, ⟨8, _⟩ => ⟨S120, .f32⟩
  | .hbm, ⟨9, _⟩ => ⟨S90x120, .f32⟩
  | .hbm, ⟨10, _⟩ => ⟨S90, .f32⟩
  | .hbm, ⟨11, _⟩ => ⟨S60x90, .f32⟩
  | .hbm, ⟨12, _⟩ => ⟨S60, .f32⟩
  | .hbm, ⟨13, _⟩ => ⟨S30x60, .f32⟩
  | .hbm, ⟨14, _⟩ => ⟨S30, .f32⟩
  | .hbm, ⟨15, _⟩ => ⟨S15x30, .f32⟩
  | .hbm, ⟨16, _⟩ => ⟨S15, .f32⟩
  | .hbm, ⟨17, _⟩ => ⟨S10x15, .f32⟩
  | .hbm, ⟨18, _⟩ => ⟨S10, .f32⟩
  | .hbm, ⟨19, _⟩ => ⟨S5x10, .f32⟩
  | .hbm, ⟨20, _⟩ => ⟨S5, .f32⟩
  | .hbm, ⟨21, _⟩ => ⟨S1x5, .f32⟩
  | .hbm, ⟨22, _⟩ => ⟨S1, .f32⟩
  | .hbm, ⟨23, _⟩ => ⟨S15x30, .f32⟩
  | .hbm, ⟨24, _⟩ => ⟨S15x30, .bf16⟩
  | .hbm, ⟨25, _⟩ => ⟨S1x30, .f32⟩
  | .hbm, ⟨26, _⟩ => ⟨S30x60, .f32⟩
  | .hbm, ⟨27, _⟩ => ⟨S30x60, .bf16⟩
  | .hbm, ⟨28, _⟩ => ⟨S1x60, .f32⟩
  | .hbm, ⟨29, _⟩ => ⟨S60x90, .f32⟩
  | .hbm, ⟨30, _⟩ => ⟨S60x90, .bf16⟩
  | .hbm, ⟨31, _⟩ => ⟨S1x90, .f32⟩
  | .hbm, ⟨32, _⟩ => ⟨S90x120, .f32⟩
  | .hbm, ⟨33, _⟩ => ⟨S90x120, .bf16⟩
  | .hbm, ⟨34, _⟩ => ⟨S1x120, .f32⟩
  | .hbm, ⟨35, _⟩ => ⟨S120x90, .f32⟩
  | .hbm, ⟨36, _⟩ => ⟨S120x90, .bf16⟩
  | .hbm, ⟨37, _⟩ => ⟨S1x90, .f32⟩
  | .hbm, ⟨38, _⟩ => ⟨S90x60, .f32⟩
  | .hbm, ⟨39, _⟩ => ⟨S90x60, .bf16⟩
  | .hbm, ⟨40, _⟩ => ⟨S1x60, .f32⟩
  | .hbm, ⟨41, _⟩ => ⟨S60x30, .f32⟩
  | .hbm, ⟨42, _⟩ => ⟨S60x30, .bf16⟩
  | .hbm, ⟨43, _⟩ => ⟨S1x30, .f32⟩
  | .hbm, ⟨44, _⟩ => ⟨S30x15, .f32⟩
  | .hbm, ⟨45, _⟩ => ⟨S30x15, .bf16⟩
  | .hbm, ⟨46, _⟩ => ⟨S1x15, .f32⟩
  | .hbm, ⟨47, _⟩ => ⟨S15x10, .f32⟩
  | .hbm, ⟨48, _⟩ => ⟨S15x10, .bf16⟩
  | .hbm, ⟨49, _⟩ => ⟨S1x10, .f32⟩
  | .hbm, ⟨50, _⟩ => ⟨S10x5, .f32⟩
  | .hbm, ⟨51, _⟩ => ⟨S10x5, .bf16⟩
  | .hbm, ⟨52, _⟩ => ⟨S1x5, .f32⟩
  | .hbm, ⟨53, _⟩ => ⟨S1x5, .bf16⟩
  | .hbm, ⟨54, _⟩ => ⟨S1x1, .f32⟩
  | .hbm, ⟨55, _⟩ => ⟨S1x524288, .f32⟩
  | .hbm, ⟨56, _⟩ => ⟨S524288x1, .f32⟩
  | .local _ .vmem, ⟨0, _⟩ => ⟨S16384x15, .f32⟩
  | .local _ .vmem, ⟨1, _⟩ => ⟨S16384x15, .f32⟩
  | .local _ .vmem, ⟨2, _⟩ => ⟨S15x30, .bf16⟩
  | .local _ .vmem, ⟨3, _⟩ => ⟨S1x30, .f32⟩
  | .local _ .vmem, ⟨4, _⟩ => ⟨S30x60, .bf16⟩
  | .local _ .vmem, ⟨5, _⟩ => ⟨S1x60, .f32⟩
  | .local _ .vmem, ⟨6, _⟩ => ⟨S60x90, .bf16⟩
  | .local _ .vmem, ⟨7, _⟩ => ⟨S1x90, .f32⟩
  | .local _ .vmem, ⟨8, _⟩ => ⟨S90x120, .bf16⟩
  | .local _ .vmem, ⟨9, _⟩ => ⟨S1x120, .f32⟩
  | .local _ .vmem, ⟨10, _⟩ => ⟨S120x90, .bf16⟩
  | .local _ .vmem, ⟨11, _⟩ => ⟨S1x90, .f32⟩
  | .local _ .vmem, ⟨12, _⟩ => ⟨S90x60, .bf16⟩
  | .local _ .vmem, ⟨13, _⟩ => ⟨S1x60, .f32⟩
  | .local _ .vmem, ⟨14, _⟩ => ⟨S60x30, .bf16⟩
  | .local _ .vmem, ⟨15, _⟩ => ⟨S1x30, .f32⟩
  | .local _ .vmem, ⟨16, _⟩ => ⟨S30x15, .bf16⟩
  | .local _ .vmem, ⟨17, _⟩ => ⟨S1x15, .f32⟩
  | .local _ .vmem, ⟨18, _⟩ => ⟨S15x10, .bf16⟩
  | .local _ .vmem, ⟨19, _⟩ => ⟨S1x10, .f32⟩
  | .local _ .vmem, ⟨20, _⟩ => ⟨S10x5, .bf16⟩
  | .local _ .vmem, ⟨21, _⟩ => ⟨S1x5, .f32⟩
  | .local _ .vmem, ⟨22, _⟩ => ⟨S1x5, .bf16⟩
  | .local _ .vmem, ⟨23, _⟩ => ⟨S1x1, .f32⟩
  | .local _ .vmem, ⟨24, _⟩ => ⟨S1x16384, .f32⟩
  | .local _ .vmem, ⟨25, _⟩ => ⟨S1x16384, .f32⟩
  | _, _ => ⟨S524288x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x30 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x60 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S60x90 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x90 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S90x120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S120x90 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x90 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S90x60 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x60 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S60x30 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x30 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S30x15 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x15 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S15x10 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S10x5 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x5 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x5 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x16384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  transposes_S30x15_S15x30_1_0 : S30x15.Transposes [1, 0] S15x30
  bitsLt_bf16_f32 : FTy.bits .bf16 < FTy.bits .f32
  shapeCasts_S30_S1x30 : S30.ShapeCasts S1x30
  transposes_S60x30_S30x60_1_0 : S60x30.Transposes [1, 0] S30x60
  shapeCasts_S60_S1x60 : S60.ShapeCasts S1x60
  transposes_S90x60_S60x90_1_0 : S90x60.Transposes [1, 0] S60x90
  shapeCasts_S90_S1x90 : S90.ShapeCasts S1x90
  transposes_S120x90_S90x120_1_0 : S120x90.Transposes [1, 0] S90x120
  shapeCasts_S120_S1x120 : S120.ShapeCasts S1x120
  transposes_S90x120_S120x90_1_0 : S90x120.Transposes [1, 0] S120x90
  transposes_S60x90_S90x60_1_0 : S60x90.Transposes [1, 0] S90x60
  transposes_S30x60_S60x30_1_0 : S30x60.Transposes [1, 0] S60x30
  transposes_S15x30_S30x15_1_0 : S15x30.Transposes [1, 0] S30x15
  shapeCasts_S15_S1x15 : S15.ShapeCasts S1x15
  transposes_S10x15_S15x10_1_0 : S10x15.Transposes [1, 0] S15x10
  shapeCasts_S10_S1x10 : S10.ShapeCasts S1x10
  transposes_S5x10_S10x5_1_0 : S5x10.Transposes [1, 0] S10x5
  shapeCasts_S5_S1x5 : S5.ShapeCasts S1x5
  shapeCasts_S1_S1x1 : S1.ShapeCasts S1x1
  inb_S16384x15_S16384x15_0_0 : ∀ a, (![0, 0] : Fin 2 → Nat) a + S16384x15.size a ≤ S16384x15.size a
  h_S16384x15 : 0 < S16384x15.numel
  inb_S15x30_S15x30_0_0 : ∀ a, (![0, 0] : Fin 2 → Nat) a + S15x30.size a ≤ S15x30.size a
  h_S15x30 : 0 < S15x30.numel
  shapeCasts_S15x30_S15x30 : S15x30.ShapeCasts S15x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S16384x30 : S1x30.Broadcasts S16384x30
  inb_S30x60_S30x60_0_0 : ∀ a, (![0, 0] : Fin 2 → Nat) a + S30x60.size a ≤ S30x60.size a
  h_S30x60 : 0 < S30x60.numel
  shapeCasts_S30x60_S30x60 : S30x60.ShapeCasts S30x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S16384x60 : S1x60.Broadcasts S16384x60
  inb_S60x90_S60x90_0_0 : ∀ a, (![0, 0] : Fin 2 → Nat) a + S60x90.size a ≤ S60x90.size a
  h_S60x90 : 0 < S60x90.numel
  shapeCasts_S60x90_S60x90 : S60x90.ShapeCasts S60x90
  inb_S1x90_S1x90_0_0 : ∀ a, (![0, 0] : Fin 2 → Nat) a + S1x90.size a ≤ S1x90.size a
  h_S1x90 : 0 < S1x90.numel
  shapeCasts_S1x90_S1x90 : S1x90.ShapeCasts S1x90
  broadcasts_S1x90_S16384x90 : S1x90.Broadcasts S16384x90
  inb_S90x120_S90x120_0_0 : ∀ a, (![0, 0] : Fin 2 → Nat) a + S90x120.size a ≤ S90x120.size a
  h_S90x120 : 0 < S90x120.numel
  shapeCasts_S90x120_S90x120 : S90x120.ShapeCasts S90x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S16384x120 : S1x120.Broadcasts S16384x120
  inb_S120x90_S120x90_0_0 : ∀ a, (![0, 0] : Fin 2 → Nat) a + S120x90.size a ≤ S120x90.size a
  h_S120x90 : 0 < S120x90.numel
  shapeCasts_S120x90_S120x90 : S120x90.ShapeCasts S120x90
  inb_S90x60_S90x60_0_0 : ∀ a, (![0, 0] : Fin 2 → Nat) a + S90x60.size a ≤ S90x60.size a
  h_S90x60 : 0 < S90x60.numel
  shapeCasts_S90x60_S90x60 : S90x60.ShapeCasts S90x60
  inb_S60x30_S60x30_0_0 : ∀ a, (![0, 0] : Fin 2 → Nat) a + S60x30.size a ≤ S60x30.size a
  h_S60x30 : 0 < S60x30.numel
  shapeCasts_S60x30_S60x30 : S60x30.ShapeCasts S60x30
  inb_S30x15_S30x15_0_0 : ∀ a, (![0, 0] : Fin 2 → Nat) a + S30x15.size a ≤ S30x15.size a
  h_S30x15 : 0 < S30x15.numel
  shapeCasts_S30x15_S30x15 : S30x15.ShapeCasts S30x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S16384x15 : S1x15.Broadcasts S16384x15
  inb_S15x10_S15x10_0_0 : ∀ a, (![0, 0] : Fin 2 → Nat) a + S15x10.size a ≤ S15x10.size a
  h_S15x10 : 0 < S15x10.numel
  shapeCasts_S15x10_S15x10 : S15x10.ShapeCasts S15x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16384x10 : S1x10.Broadcasts S16384x10
  inb_S10x5_S10x5_0_0 : ∀ a, (![0, 0] : Fin 2 → Nat) a + S10x5.size a ≤ S10x5.size a
  h_S10x5 : 0 < S10x5.numel
  shapeCasts_S10x5_S10x5 : S10x5.ShapeCasts S10x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S16384x5 : S1x5.Broadcasts S16384x5
  transposes_S16384x5_p1_0_S5x16384 : S16384x5.Transposes [1, 0] S5x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  shapeCasts_S1x524288_S524288x1 : S1x524288.ShapeCasts S524288x1
  dot_S16384x15_S15x30_S16384x30_1_0_0_1_n_n_wf : DotDims.WF S16384x15 S15x30 S16384x30 [1] [0] [0] [1] [] []
  dot_S16384x30_S30x60_S16384x60_1_0_0_1_n_n_wf : DotDims.WF S16384x30 S30x60 S16384x60 [1] [0] [0] [1] [] []
  dot_S16384x60_S60x90_S16384x90_1_0_0_1_n_n_wf : DotDims.WF S16384x60 S60x90 S16384x90 [1] [0] [0] [1] [] []
  dot_S16384x90_S90x120_S16384x120_1_0_0_1_n_n_wf : DotDims.WF S16384x90 S90x120 S16384x120 [1] [0] [0] [1] [] []
  dot_S16384x120_S120x90_S16384x90_1_0_0_1_n_n_wf : DotDims.WF S16384x120 S120x90 S16384x90 [1] [0] [0] [1] [] []
  dot_S16384x90_S90x60_S16384x60_1_0_0_1_n_n_wf : DotDims.WF S16384x90 S90x60 S16384x60 [1] [0] [0] [1] [] []
  dot_S16384x60_S60x30_S16384x30_1_0_0_1_n_n_wf : DotDims.WF S16384x60 S60x30 S16384x30 [1] [0] [0] [1] [] []
  dot_S16384x30_S30x15_S16384x15_1_0_0_1_n_n_wf : DotDims.WF S16384x30 S30x15 S16384x15 [1] [0] [0] [1] [] []
  dot_S16384x15_S15x10_S16384x10_1_0_0_1_n_n_wf : DotDims.WF S16384x15 S15x10 S16384x10 [1] [0] [0] [1] [] []
  dot_S16384x10_S10x5_S16384x5_1_0_0_1_n_n_wf : DotDims.WF S16384x10 S10x5 S16384x5 [1] [0] [0] [1] [] []
  dot_S1x5_S5x16384_S1x16384_1_0_0_1_n_n_wf : DotDims.WF S1x5 S5x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x15.size a ≤ S524288x15.size a
  hwx0_0 : ∀ i : grid0.Coords, EltTy.bits .f32 = 32 ∨ (Rect.block (s := S524288x15) S16384x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x30.size a ≤ S15x30.size a
  hwx0_1 : ∀ i : grid0.Coords, EltTy.bits .bf16 = 32 ∨ (Rect.block (s := S15x30) S15x30.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x30.size a ≤ S1x30.size a
  hwx0_2 : ∀ i : grid0.Coords, EltTy.bits .f32 = 32 ∨ (Rect.block (s := S1x30) S1x30.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x60.size a ≤ S30x60.size a
  hwx0_3 : ∀ i : grid0.Coords, EltTy.bits .bf16 = 32 ∨ (Rect.block (s := S30x60) S30x60.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x60.size a ≤ S1x60.size a
  hwx0_4 : ∀ i : grid0.Coords, EltTy.bits .f32 = 32 ∨ (Rect.block (s := S1x60) S1x60.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S60x90.size a ≤ S60x90.size a
  hwx0_5 : ∀ i : grid0.Coords, EltTy.bits .bf16 = 32 ∨ (Rect.block (s := S60x90) S60x90.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x90.size a ≤ S1x90.size a
  hwx0_6 : ∀ i : grid0.Coords, EltTy.bits .f32 = 32 ∨ (Rect.block (s := S1x90) S1x90.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S90x120.size a ≤ S90x120.size a
  hwx0_7 : ∀ i : grid0.Coords, EltTy.bits .bf16 = 32 ∨ (Rect.block (s := S90x120) S90x120.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x120.size a ≤ S1x120.size a
  hwx0_8 : ∀ i : grid0.Coords, EltTy.bits .f32 = 32 ∨ (Rect.block (s := S1x120) S1x120.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S120x90.size a ≤ S120x90.size a
  hwx0_9 : ∀ i : grid0.Coords, EltTy.bits .bf16 = 32 ∨ (Rect.block (s := S120x90) S120x90.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x90.size a ≤ S1x90.size a
  hwx0_10 : ∀ i : grid0.Coords, EltTy.bits .f32 = 32 ∨ (Rect.block (s := S1x90) S1x90.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S90x60.size a ≤ S90x60.size a
  hwx0_11 : ∀ i : grid0.Coords, EltTy.bits .bf16 = 32 ∨ (Rect.block (s := S90x60) S90x60.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x60.size a ≤ S1x60.size a
  hwx0_12 : ∀ i : grid0.Coords, EltTy.bits .f32 = 32 ∨ (Rect.block (s := S1x60) S1x60.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S60x30.size a ≤ S60x30.size a
  hwx0_13 : ∀ i : grid0.Coords, EltTy.bits .bf16 = 32 ∨ (Rect.block (s := S60x30) S60x30.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x30.size a ≤ S1x30.size a
  hwx0_14 : ∀ i : grid0.Coords, EltTy.bits .f32 = 32 ∨ (Rect.block (s := S1x30) S1x30.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S30x15.size a ≤ S30x15.size a
  hwx0_15 : ∀ i : grid0.Coords, EltTy.bits .bf16 = 32 ∨ (Rect.block (s := S30x15) S30x15.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x15.size a ≤ S1x15.size a
  hwx0_16 : ∀ i : grid0.Coords, EltTy.bits .f32 = 32 ∨ (Rect.block (s := S1x15) S1x15.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S15x10.size a ≤ S15x10.size a
  hwx0_17 : ∀ i : grid0.Coords, EltTy.bits .bf16 = 32 ∨ (Rect.block (s := S15x10) S15x10.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x10.size a ≤ S1x10.size a
  hwx0_18 : ∀ i : grid0.Coords, EltTy.bits .f32 = 32 ∨ (Rect.block (s := S1x10) S1x10.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S10x5.size a ≤ S10x5.size a
  hwx0_19 : ∀ i : grid0.Coords, EltTy.bits .bf16 = 32 ∨ (Rect.block (s := S10x5) S10x5.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x5.size a ≤ S1x5.size a
  hwx0_20 : ∀ i : grid0.Coords, EltTy.bits .f32 = 32 ∨ (Rect.block (s := S1x5) S1x5.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x5.size a ≤ S1x5.size a
  hwx0_21 : ∀ i : grid0.Coords, EltTy.bits .bf16 = 32 ∨ (Rect.block (s := S1x5) S1x5.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x16384.size a ≤ S1x524288.size a
  hwx0_23 : ∀ i : grid0.Coords, EltTy.bits .f32 = 32 ∨ (Rect.block (s := S1x524288) S1x16384.size (cc0_transform_23 i) (hinb0_23 i)).WholeWords (EltTy.packing .f32)

variable [Facts₀]

def dot_S16384x15_S15x30_S16384x30_1_0_0_1_n_n : DotDims S16384x15 S15x30 S16384x30 where
  lhsContracting := [1]
  rhsContracting := [0]
  lhsNonContracting := [0]
  rhsNonContracting := [1]
  lhsBatch := []
  rhsBatch := []
  wf := dot_S16384x15_S15x30_S16384x30_1_0_0_1_n_n_wf
def dot_S16384x30_S30x60_S16384x60_1_0_0_1_n_n : DotDims S16384x30 S30x60 S16384x60 where
  lhsContracting := [1]
  rhsContracting := [0]
  lhsNonContracting := [0]
  rhsNonContracting := [1]
  lhsBatch := []
  rhsBatch := []
  wf := dot_S16384x30_S30x60_S16384x60_1_0_0_1_n_n_wf
def dot_S16384x60_S60x90_S16384x90_1_0_0_1_n_n : DotDims S16384x60 S60x90 S16384x90 where
  lhsContracting := [1]
  rhsContracting := [0]
  lhsNonContracting := [0]
  rhsNonContracting := [1]
  lhsBatch := []
  rhsBatch := []
  wf := dot_S16384x60_S60x90_S16384x90_1_0_0_1_n_n_wf
def dot_S16384x90_S90x120_S16384x120_1_0_0_1_n_n : DotDims S16384x90 S90x120 S16384x120 where
  lhsContracting := [1]
  rhsContracting := [0]
  lhsNonContracting := [0]
  rhsNonContracting := [1]
  lhsBatch := []
  rhsBatch := []
  wf := dot_S16384x90_S90x120_S16384x120_1_0_0_1_n_n_wf
def dot_S16384x120_S120x90_S16384x90_1_0_0_1_n_n : DotDims S16384x120 S120x90 S16384x90 where
  lhsContracting := [1]
  rhsContracting := [0]
  lhsNonContracting := [0]
  rhsNonContracting := [1]
  lhsBatch := []
  rhsBatch := []
  wf := dot_S16384x120_S120x90_S16384x90_1_0_0_1_n_n_wf
def dot_S16384x90_S90x60_S16384x60_1_0_0_1_n_n : DotDims S16384x90 S90x60 S16384x60 where
  lhsContracting := [1]
  rhsContracting := [0]
  lhsNonContracting := [0]
  rhsNonContracting := [1]
  lhsBatch := []
  rhsBatch := []
  wf := dot_S16384x90_S90x60_S16384x60_1_0_0_1_n_n_wf
def dot_S16384x60_S60x30_S16384x30_1_0_0_1_n_n : DotDims S16384x60 S60x30 S16384x30 where
  lhsContracting := [1]
  rhsContracting := [0]
  lhsNonContracting := [0]
  rhsNonContracting := [1]
  lhsBatch := []
  rhsBatch := []
  wf := dot_S16384x60_S60x30_S16384x30_1_0_0_1_n_n_wf
def dot_S16384x30_S30x15_S16384x15_1_0_0_1_n_n : DotDims S16384x30 S30x15 S16384x15 where
  lhsContracting := [1]
  rhsContracting := [0]
  lhsNonContracting := [0]
  rhsNonContracting := [1]
  lhsBatch := []
  rhsBatch := []
  wf := dot_S16384x30_S30x15_S16384x15_1_0_0_1_n_n_wf
def dot_S16384x15_S15x10_S16384x10_1_0_0_1_n_n : DotDims S16384x15 S15x10 S16384x10 where
  lhsContracting := [1]
  rhsContracting := [0]
  lhsNonContracting := [0]
  rhsNonContracting := [1]
  lhsBatch := []
  rhsBatch := []
  wf := dot_S16384x15_S15x10_S16384x10_1_0_0_1_n_n_wf
def dot_S16384x10_S10x5_S16384x5_1_0_0_1_n_n : DotDims S16384x10 S10x5 S16384x5 where
  lhsContracting := [1]
  rhsContracting := [0]
  lhsNonContracting := [0]
  rhsNonContracting := [1]
  lhsBatch := []
  rhsBatch := []
  wf := dot_S16384x10_S10x5_S16384x5_1_0_0_1_n_n_wf
def dot_S1x5_S5x16384_S1x16384_1_0_0_1_n_n : DotDims S1x5 S5x16384 S1x16384 where
  lhsContracting := [1]
  rhsContracting := [0]
  lhsNonContracting := [0]
  rhsNonContracting := [1]
  lhsBatch := []
  rhsBatch := []
  wf := dot_S1x5_S5x16384_S1x16384_1_0_0_1_n_n_wf

abbrev win0_0 : Pipeline.Window sig grid0 :=
  Pipeline.Window.ofSpec (Memref.whole main_arg0) S16384x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S15x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S30x60.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x60.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S60x90.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x90.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S90x120.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x120.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S120x90.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x90.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S90x60.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x60.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S60x30.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S1x30.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v22) S30x15.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S1x15.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v25) S15x10.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S1x10.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S10x5.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x5.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v30) S1x5.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v31) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v32) S1x16384.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S524288x15 : Shape := ⟨2, ![524288, 15]⟩
abbrev S30x15 : Shape := ⟨2, ![30, 15]⟩
abbrev S30 : Shape := ⟨1, ![30]⟩
abbrev S60x30 : Shape := ⟨2, ![60, 30]⟩
abbrev S60 : Shape := ⟨1, ![60]⟩
abbrev S90x60 : Shape := ⟨2, ![90, 60]⟩
abbrev S90 : Shape := ⟨1, ![90]⟩
abbrev S120x90 : Shape := ⟨2, ![120, 90]⟩
abbrev S120 : Shape := ⟨1, ![120]⟩
abbrev S90x120 : Shape := ⟨2, ![90, 120]⟩
abbrev S60x90 : Shape := ⟨2, ![60, 90]⟩
abbrev S30x60 : Shape := ⟨2, ![30, 60]⟩
abbrev S15x30 : Shape := ⟨2, ![15, 30]⟩
abbrev S15 : Shape := ⟨1, ![15]⟩
abbrev S10x15 : Shape := ⟨2, ![10, 15]⟩
abbrev S10 : Shape := ⟨1, ![10]⟩
abbrev S5x10 : Shape := ⟨2, ![5, 10]⟩
abbrev S5 : Shape := ⟨1, ![5]⟩
abbrev S1x5 : Shape := ⟨2, ![1, 5]⟩
abbrev S1 : Shape := ⟨1, ![1]⟩
abbrev S524288x30 : Shape := ⟨2, ![524288, 30]⟩
abbrev S1x30 : Shape := ⟨2, ![1, 30]⟩
abbrev S_ : Shape := ⟨0, ![]⟩
abbrev S524288x60 : Shape := ⟨2, ![524288, 60]⟩
abbrev S1x60 : Shape := ⟨2, ![1, 60]⟩
abbrev S524288x90 : Shape := ⟨2, ![524288, 90]⟩
abbrev S1x90 : Shape := ⟨2, ![1, 90]⟩
abbrev S524288x120 : Shape := ⟨2, ![524288, 120]⟩
abbrev S1x120 : Shape := ⟨2, ![1, 120]⟩
abbrev S1x15 : Shape := ⟨2, ![1, 15]⟩
abbrev S15x10 : Shape := ⟨2, ![15, 10]⟩
abbrev S524288x10 : Shape := ⟨2, ![524288, 10]⟩
abbrev S1x10 : Shape := ⟨2, ![1, 10]⟩
abbrev S10x5 : Shape := ⟨2, ![10, 5]⟩
abbrev S524288x5 : Shape := ⟨2, ![524288, 5]⟩
abbrev S5x1 : Shape := ⟨2, ![5, 1]⟩
abbrev S524288x1 : Shape := ⟨2, ![524288, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S524288x15, .f32⟩
  | .hbm, ⟨1, _⟩ => ⟨S30x15, .f32⟩
  | .hbm, ⟨2, _⟩ => ⟨S30, .f32⟩
  | .hbm, ⟨3, _⟩ => ⟨S60x30, .f32⟩
  | .hbm, ⟨4, _⟩ => ⟨S60, .f32⟩
  | .hbm, ⟨5, _⟩ => ⟨S90x60, .f32⟩
  | .hbm, ⟨6, _⟩ => ⟨S90, .f32⟩
  | .hbm, ⟨7, _⟩ => ⟨S120x90, .f32⟩
  | .hbm, ⟨8, _⟩ => ⟨S120, .f32⟩
  | .hbm, ⟨9, _⟩ => ⟨S90x120, .f32⟩
  | .hbm, ⟨10, _⟩ => ⟨S90, .f32⟩
  | .hbm, ⟨11, _⟩ => ⟨S60x90, .f32⟩
  | .hbm, ⟨12, _⟩ => ⟨S60, .f32⟩
  | .hbm, ⟨13, _⟩ => ⟨S30x60, .f32⟩
  | .hbm, ⟨14, _⟩ => ⟨S30, .f32⟩
  | .hbm, ⟨15, _⟩ => ⟨S15x30, .f32⟩
  | .hbm, ⟨16, _⟩ => ⟨S15, .f32⟩
  | .hbm, ⟨17, _⟩ => ⟨S10x15, .f32⟩
  | .hbm, ⟨18, _⟩ => ⟨S10, .f32⟩
  | .hbm, ⟨19, _⟩ => ⟨S5x10, .f32⟩
  | .hbm, ⟨20, _⟩ => ⟨S5, .f32⟩
  | .hbm, ⟨21, _⟩ => ⟨S1x5, .f32⟩
  | .hbm, ⟨22, _⟩ => ⟨S1, .f32⟩
  | .hbm, ⟨23, _⟩ => ⟨S15x30, .f32⟩
  | .hbm, ⟨24, _⟩ => ⟨S524288x30, .f32⟩
  | .hbm, ⟨25, _⟩ => ⟨S1x30, .f32⟩
  | .hbm, ⟨26, _⟩ => ⟨S524288x30, .f32⟩
  | .hbm, ⟨27, _⟩ => ⟨S524288x30, .f32⟩
  | .hbm, ⟨28, _⟩ => ⟨S_, .f32⟩
  | .hbm, ⟨29, _⟩ => ⟨S524288x30, .f32⟩
  | .hbm, ⟨30, _⟩ => ⟨S524288x30, .f32⟩
  | .hbm, ⟨31, _⟩ => ⟨S30x60, .f32⟩
  | .hbm, ⟨32, _⟩ => ⟨S524288x60, .f32⟩
  | .hbm, ⟨33, _⟩ => ⟨S1x60, .f32⟩
  | .hbm, ⟨34, _⟩ => ⟨S524288x60, .f32⟩
  | .hbm, ⟨35, _⟩ => ⟨S524288x60, .f32⟩
  | .hbm, ⟨36, _⟩ => ⟨S_, .f32⟩
  | .hbm, ⟨37, _⟩ => ⟨S524288x60, .f32⟩
  | .hbm, ⟨38, _⟩ => ⟨S524288x60, .f32⟩
  | .hbm, ⟨39, _⟩ => ⟨S60x90, .f32⟩
  | .hbm, ⟨40, _⟩ => ⟨S524288x90, .f32⟩
  | .hbm, ⟨41, _⟩ => ⟨S1x90, .f32⟩
  | .hbm, ⟨42, _⟩ => ⟨S524288x90, .f32⟩
  | .hbm, ⟨43, _⟩ => ⟨S524288x90, .f32⟩
  | .hbm, ⟨44, _⟩ => ⟨S_, .f32⟩
  | .hbm, ⟨45, _⟩ => ⟨S524288x90, .f32⟩
  | .hbm, ⟨46, _⟩ => ⟨S524288x90, .f32⟩
  | .hbm, ⟨47, _⟩ => ⟨S90x120, .f32⟩
  | .hbm, ⟨48, _⟩ => ⟨S524288x120, .f32⟩
  | .hbm, ⟨49, _⟩ => ⟨S1x120, .f32⟩
  | .hbm, ⟨50, _⟩ => ⟨S524288x120, .f32⟩
  | .hbm, ⟨51, _⟩ => ⟨S524288x120, .f32⟩
  | .hbm, ⟨52, _⟩ => ⟨S_, .f32⟩
  | .hbm, ⟨53, _⟩ => ⟨S524288x120, .f32⟩
  | .hbm, ⟨54, _⟩ => ⟨S524288x120, .f32⟩
  | .hbm, ⟨55, _⟩ => ⟨S120x90, .f32⟩
  | .hbm, ⟨56, _⟩ => ⟨S524288x90, .f32⟩
  | .hbm, ⟨57, _⟩ => ⟨S1x90, .f32⟩
  | .hbm, ⟨58, _⟩ => ⟨S524288x90, .f32⟩
  | .hbm, ⟨59, _⟩ => ⟨S524288x90, .f32⟩
  | .hbm, ⟨60, _⟩ => ⟨S_, .f32⟩
  | .hbm, ⟨61, _⟩ => ⟨S524288x90, .f32⟩
  | .hbm, ⟨62, _⟩ => ⟨S524288x90, .f32⟩
  | .hbm, ⟨63, _⟩ => ⟨S90x60, .f32⟩
  | .hbm, ⟨64, _⟩ => ⟨S524288x60, .f32⟩
  | .hbm, ⟨65, _⟩ => ⟨S1x60, .f32⟩
  | .hbm, ⟨66, _⟩ => ⟨S524288x60, .f32⟩
  | .hbm, ⟨67, _⟩ => ⟨S524288x60, .f32⟩
  | .hbm, ⟨68, _⟩ => ⟨S_, .f32⟩
  | .hbm, ⟨69, _⟩ => ⟨S524288x60, .f32⟩
  | .hbm, ⟨70, _⟩ => ⟨S524288x60, .f32⟩
  | .hbm, ⟨71, _⟩ => ⟨S60x30, .f32⟩
  | .hbm, ⟨72, _⟩ => ⟨S524288x30, .f32⟩
  | .hbm, ⟨73, _⟩ => ⟨S1x30, .f32⟩
  | .hbm, ⟨74, _⟩ => ⟨S524288x30, .f32⟩
  | .hbm, ⟨75, _⟩ => ⟨S524288x30, .f32⟩
  | .hbm, ⟨76, _⟩ => ⟨S_, .f32⟩
  | .hbm, ⟨77, _⟩ => ⟨S524288x30, .f32⟩
  | .hbm, ⟨78, _⟩ => ⟨S524288x30, .f32⟩
  | .hbm, ⟨79, _⟩ => ⟨S30x15, .f32⟩
  | .hbm, ⟨80, _⟩ => ⟨S524288x15, .f32⟩
  | .hbm, ⟨81, _⟩ => ⟨S1x15, .f32⟩
  | .hbm, ⟨82, _⟩ => ⟨S524288x15, .f32⟩
  | .hbm, ⟨83, _⟩ => ⟨S524288x15, .f32⟩
  | .hbm, ⟨84, _⟩ => ⟨S_, .f32⟩
  | .hbm, ⟨85, _⟩ => ⟨S524288x15, .f32⟩
  | .hbm, ⟨86, _⟩ => ⟨S524288x15, .f32⟩
  | .hbm, ⟨87, _⟩ => ⟨S15x10, .f32⟩
  | .hbm, ⟨88, _⟩ => ⟨S524288x10, .f32⟩
  | .hbm, ⟨89, _⟩ => ⟨S1x10, .f32⟩
  | .hbm, ⟨90, _⟩ => ⟨S524288x10, .f32⟩
  | .hbm, ⟨91, _⟩ => ⟨S524288x10, .f32⟩
  | .hbm, ⟨92, _⟩ => ⟨S_, .f32⟩
  | .hbm, ⟨93, _⟩ => ⟨S524288x10, .f32⟩
  | .hbm, ⟨94, _⟩ => ⟨S524288x10, .f32⟩
  | .hbm, ⟨95, _⟩ => ⟨S10x5, .f32⟩
  | .hbm, ⟨96, _⟩ => ⟨S524288x5, .f32⟩
  | .hbm, ⟨97, _⟩ => ⟨S1x5, .f32⟩
  | .hbm, ⟨98, _⟩ => ⟨S524288x5, .f32⟩
  | .hbm, ⟨99, _⟩ => ⟨S524288x5, .f32⟩
  | .hbm, ⟨100, _⟩ => ⟨S_, .f32⟩
  | .hbm, ⟨101, _⟩ => ⟨S524288x5, .f32⟩
  | .hbm, ⟨102, _⟩ => ⟨S524288x5, .f32⟩
  | .hbm, ⟨103, _⟩ => ⟨S5x1, .f32⟩
  | .hbm, ⟨104, _⟩ => ⟨S524288x1, .f32⟩
  | .hbm, ⟨105, _⟩ => ⟨S1x1, .f32⟩
  | .hbm, ⟨106, _⟩ => ⟨S524288x1, .f32⟩
  | .hbm, ⟨107, _⟩ => ⟨S524288x1, .f32⟩
  | .hbm, ⟨108, _⟩ => ⟨S524288x1, .f32⟩
  | .hbm, ⟨109, _⟩ => ⟨S524288x1, .f32⟩
  | .hbm, ⟨110, _⟩ => ⟨S_, .f32⟩
  | .hbm, ⟨111, _⟩ => ⟨S524288x1, .f32⟩
  | .hbm, ⟨112, _⟩ => ⟨S524288x1, .f32⟩
  | .hbm, ⟨113, _⟩ => ⟨S_, .f32⟩
  | .hbm, ⟨114, _⟩ => ⟨S524288x1, .f32⟩
  | .hbm, ⟨115, _⟩ => ⟨S524288x1, .f32⟩
  | _, _ => ⟨S524288x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call0_cst : Ref sig .tc := ⟨.hbm, 28, rfl⟩
abbrev main_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_cst : Ref sig .tc := ⟨.hbm, 36, rfl⟩
abbrev main_call1_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_cst : Ref sig .tc := ⟨.hbm, 44, rfl⟩
abbrev main_call2_v0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call3_cst : Ref sig .tc := ⟨.hbm, 52, rfl⟩
abbrev main_call3_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call4_cst : Ref sig .tc := ⟨.hbm, 60, rfl⟩
abbrev main_call4_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call5_cst : Ref sig .tc := ⟨.hbm, 68, rfl⟩
abbrev main_call5_v0 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_call6_cst : Ref sig .tc := ⟨.hbm, 76, rfl⟩
abbrev main_call6_v0 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_call7_cst : Ref sig .tc := ⟨.hbm, 84, rfl⟩
abbrev main_call7_v0 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call8_cst : Ref sig .tc := ⟨.hbm, 92, rfl⟩
abbrev main_call8_v0 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call9_cst : Ref sig .tc := ⟨.hbm, 100, rfl⟩
abbrev main_call9_v0 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst : Ref sig .tc := ⟨.hbm, 110, rfl⟩
abbrev main_v67 : Ref sig .tc := ⟨.hbm, 111, rfl⟩
abbrev main_v68 : Ref sig .tc := ⟨.hbm, 112, rfl⟩
abbrev main_cst_0 : Ref sig .tc := ⟨.hbm, 113, rfl⟩
abbrev main_v69 : Ref sig .tc := ⟨.hbm, 114, rfl⟩
abbrev main_v70 : Ref sig .tc := ⟨.hbm, 115, rfl⟩

abbrev nD : Nat := 1
abbrev τ : Topo := Topo.v7x

variable {F : FTy → Type} [FloatOps F]

class Facts₀ : Prop where
  transposes_S30x15_S15x30_1_0 : S30x15.Transposes [1, 0] S15x30
  bcast_S30_S1x30_1 : S30.BroadcastsInDim S1x30 (![1] : Fin 1 → Fin S1x30.rank)
  bcast_S1x30_S524288x30_0_1 : S1x30.BroadcastsInDim S524288x30 (![0, 1] : Fin 2 → Fin S524288x30.rank)
  bcast_S_S524288x30 : S_.BroadcastsInDim S524288x30 (![] : Fin 0 → Fin S524288x30.rank)
  transposes_S60x30_S30x60_1_0 : S60x30.Transposes [1, 0] S30x60
  bcast_S60_S1x60_1 : S60.BroadcastsInDim S1x60 (![1] : Fin 1 → Fin S1x60.rank)
  bcast_S1x60_S524288x60_0_1 : S1x60.BroadcastsInDim S524288x60 (![0, 1] : Fin 2 → Fin S524288x60.rank)
  bcast_S_S524288x60 : S_.BroadcastsInDim S524288x60 (![] : Fin 0 → Fin S524288x60.rank)
  transposes_S90x60_S60x90_1_0 : S90x60.Transposes [1, 0] S60x90
  bcast_S90_S1x90_1 : S90.BroadcastsInDim S1x90 (![1] : Fin 1 → Fin S1x90.rank)
  bcast_S1x90_S524288x90_0_1 : S1x90.BroadcastsInDim S524288x90 (![0, 1] : Fin 2 → Fin S524288x90.rank)
  bcast_S_S524288x90 : S_.BroadcastsInDim S524288x90 (![] : Fin 0 → Fin S524288x90.rank)
  transposes_S120x90_S90x120_1_0 : S120x90.Transposes [1, 0] S90x120
  bcast_S120_S1x120_1 : S120.BroadcastsInDim S1x120 (![1] : Fin 1 → Fin S1x120.rank)
  bcast_S1x120_S524288x120_0_1 : S1x120.BroadcastsInDim S524288x120 (![0, 1] : Fin 2 → Fin S524288x120.rank)
  bcast_S_S524288x120 : S_.BroadcastsInDim S524288x120 (![] : Fin 0 → Fin S524288x120.rank)
  transposes_S90x120_S120x90_1_0 : S90x120.Transposes [1, 0] S120x90
  transposes_S60x90_S90x60_1_0 : S60x90.Transposes [1, 0] S90x60
  transposes_S30x60_S60x30_1_0 : S30x60.Transposes [1, 0] S60x30
  transposes_S15x30_S30x15_1_0 : S15x30.Transposes [1, 0] S30x15
  bcast_S15_S1x15_1 : S15.BroadcastsInDim S1x15 (![1] : Fin 1 → Fin S1x15.rank)
  bcast_S1x15_S524288x15_0_1 : S1x15.BroadcastsInDim S524288x15 (![0, 1] : Fin 2 → Fin S524288x15.rank)
  bcast_S_S524288x15 : S_.BroadcastsInDim S524288x15 (![] : Fin 0 → Fin S524288x15.rank)
  transposes_S10x15_S15x10_1_0 : S10x15.Transposes [1, 0] S15x10
  bcast_S10_S1x10_1 : S10.BroadcastsInDim S1x10 (![1] : Fin 1 → Fin S1x10.rank)
  bcast_S1x10_S524288x10_0_1 : S1x10.BroadcastsInDim S524288x10 (![0, 1] : Fin 2 → Fin S524288x10.rank)
  bcast_S_S524288x10 : S_.BroadcastsInDim S524288x10 (![] : Fin 0 → Fin S524288x10.rank)
  transposes_S5x10_S10x5_1_0 : S5x10.Transposes [1, 0] S10x5
  bcast_S5_S1x5_1 : S5.BroadcastsInDim S1x5 (![1] : Fin 1 → Fin S1x5.rank)
  bcast_S1x5_S524288x5_0_1 : S1x5.BroadcastsInDim S524288x5 (![0, 1] : Fin 2 → Fin S524288x5.rank)
  bcast_S_S524288x5 : S_.BroadcastsInDim S524288x5 (![] : Fin 0 → Fin S524288x5.rank)
  transposes_S1x5_S5x1_1_0 : S1x5.Transposes [1, 0] S5x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  dot_S524288x15_S15x30_S524288x30_1_0_0_1_n_n_wf : DotDims.WF S524288x15 S15x30 S524288x30 [1] [0] [0] [1] [] []
  dot_S524288x30_S30x60_S524288x60_1_0_0_1_n_n_wf : DotDims.WF S524288x30 S30x60 S524288x60 [1] [0] [0] [1] [] []
  dot_S524288x60_S60x90_S524288x90_1_0_0_1_n_n_wf : DotDims.WF S524288x60 S60x90 S524288x90 [1] [0] [0] [1] [] []
  dot_S524288x90_S90x120_S524288x120_1_0_0_1_n_n_wf : DotDims.WF S524288x90 S90x120 S524288x120 [1] [0] [0] [1] [] []
  dot_S524288x120_S120x90_S524288x90_1_0_0_1_n_n_wf : DotDims.WF S524288x120 S120x90 S524288x90 [1] [0] [0] [1] [] []
  dot_S524288x90_S90x60_S524288x60_1_0_0_1_n_n_wf : DotDims.WF S524288x90 S90x60 S524288x60 [1] [0] [0] [1] [] []
  dot_S524288x60_S60x30_S524288x30_1_0_0_1_n_n_wf : DotDims.WF S524288x60 S60x30 S524288x30 [1] [0] [0] [1] [] []
  dot_S524288x30_S30x15_S524288x15_1_0_0_1_n_n_wf : DotDims.WF S524288x30 S30x15 S524288x15 [1] [0] [0] [1] [] []
  dot_S524288x15_S15x10_S524288x10_1_0_0_1_n_n_wf : DotDims.WF S524288x15 S15x10 S524288x10 [1] [0] [0] [1] [] []
  dot_S524288x10_S10x5_S524288x5_1_0_0_1_n_n_wf : DotDims.WF S524288x10 S10x5 S524288x5 [1] [0] [0] [1] [] []
  dot_S524288x5_S5x1_S524288x1_1_0_0_1_n_n_wf : DotDims.WF S524288x5 S5x1 S524288x1 [1] [0] [0] [1] [] []

variable [Facts₀]

def dot_S524288x15_S15x30_S524288x30_1_0_0_1_n_n : DotDims S524288x15 S15x30 S524288x30 where
  lhsContracting := [1]
  rhsContracting := [0]
  lhsNonContracting := [0]
  rhsNonContracting := [1]
  lhsBatch := []
  rhsBatch := []
  wf := dot_S524288x15_S15x30_S524288x30_1_0_0_1_n_n_wf
def dot_S524288x30_S30x60_S524288x60_1_0_0_1_n_n : DotDims S524288x30 S30x60 S524288x60 where
  lhsContracting := [1]
  rhsContracting := [0]
  lhsNonContracting := [0]
  rhsNonContracting := [1]
  lhsBatch := []
  rhsBatch := []
  wf := dot_S524288x30_S30x60_S524288x60_1_0_0_1_n_n_wf
def dot_S524288x60_S60x90_S524288x90_1_0_0_1_n_n : DotDims S524288x60 S60x90 S524288x90 where
  lhsContracting := [1]
  rhsContracting := [0]
  lhsNonContracting := [0]
  rhsNonContracting := [1]
  lhsBatch := []
  rhsBatch := []
  wf := dot_S524288x60_S60x90_S524288x90_1_0_0_1_n_n_wf
def dot_S524288x90_S90x120_S524288x120_1_0_0_1_n_n : DotDims S524288x90 S90x120 S524288x120 where
  lhsContracting := [1]
  rhsContracting := [0]
  lhsNonContracting := [0]
  rhsNonContracting := [1]
  lhsBatch := []
  rhsBatch := []
  wf := dot_S524288x90_S90x120_S524288x120_1_0_0_1_n_n_wf
def dot_S524288x120_S120x90_S524288x90_1_0_0_1_n_n : DotDims S524288x120 S120x90 S524288x90 where
  lhsContracting := [1]
  rhsContracting := [0]
  lhsNonContracting := [0]
  rhsNonContracting := [1]
  lhsBatch := []
  rhsBatch := []
  wf := dot_S524288x120_S120x90_S524288x90_1_0_0_1_n_n_wf
def dot_S524288x90_S90x60_S524288x60_1_0_0_1_n_n : DotDims S524288x90 S90x60 S524288x60 where
  lhsContracting := [1]
  rhsContracting := [0]
  lhsNonContracting := [0]
  rhsNonContracting := [1]
  lhsBatch := []
  rhsBatch := []
  wf := dot_S524288x90_S90x60_S524288x60_1_0_0_1_n_n_wf
def dot_S524288x60_S60x30_S524288x30_1_0_0_1_n_n : DotDims S524288x60 S60x30 S524288x30 where
  lhsContracting := [1]
  rhsContracting := [0]
  lhsNonContracting := [0]
  rhsNonContracting := [1]
  lhsBatch := []
  rhsBatch := []
  wf := dot_S524288x60_S60x30_S524288x30_1_0_0_1_n_n_wf
def dot_S524288x30_S30x15_S524288x15_1_0_0_1_n_n : DotDims S524288x30 S30x15 S524288x15 where
  lhsContracting := [1]
  rhsContracting := [0]
  lhsNonContracting := [0]
  rhsNonContracting := [1]
  lhsBatch := []
  rhsBatch := []
  wf := dot_S524288x30_S30x15_S524288x15_1_0_0_1_n_n_wf
def dot_S524288x15_S15x10_S524288x10_1_0_0_1_n_n : DotDims S524288x15 S15x10 S524288x10 where
  lhsContracting := [1]
  rhsContracting := [0]
  lhsNonContracting := [0]
  rhsNonContracting := [1]
  lhsBatch := []
  rhsBatch := []
  wf := dot_S524288x15_S15x10_S524288x10_1_0_0_1_n_n_wf
def dot_S524288x10_S10x5_S524288x5_1_0_0_1_n_n : DotDims S524288x10 S10x5 S524288x5 where
  lhsContracting := [1]
  rhsContracting := [0]
  lhsNonContracting := [0]
  rhsNonContracting := [1]
  lhsBatch := []
  rhsBatch := []
  wf := dot_S524288x10_S10x5_S524288x5_1_0_0_1_n_n_wf
def dot_S524288x5_S5x1_S524288x1_1_0_0_1_n_n : DotDims S524288x5 S5x1 S524288x1 where
  lhsContracting := [1]
  rhsContracting := [0]
  lhsNonContracting := [0]
  rhsNonContracting := [1]
  lhsBatch := []
  rhsBatch := []
  wf := dot_S524288x5_S5x1_S524288x1_1_0_0_1_n_n_wf

class Facts : Prop extends Facts₀ where

variable [Facts]
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDot.lean ====
/-
  A plain matrix product computed by the host's general contraction, read at an entry, over the extended reals.

  For dimension numbers that contract the left operand's second axis with the right operand's first and have no
  batch axis, the contraction `[M, K] × [K, N] → [M, N]` has at the entry `(p, q)` the value
  `∑ k, lhs (p, k) * rhs (k, q)` — the same textbook sum a product accumulated into the zero matrix has.
-/
import proofs.«116243_j9706626089657_2_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The host's contraction with plain dimension numbers, at the entry `(p, q)`, is the sum over the contracted axis
    of the products of the left operand's row `p` with the right operand's column `q`. -/
theorem host_apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    Host.dotGeneral d prec lhs rhs (ix2 p q) = ∑ k : Fin K, (lhs (ix2 p k) : EReal) * (rhs (ix2 k q) : EReal) := by
  simp only [Host.dotGeneral]
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«116243_j9706626089657_2_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.LibDenseRows.lean ====
/-
  Dense layers applied row by row, over the extended reals.

  A dense layer takes a matrix `h` of `M` rows and `K` features to the matrix of `M` rows and `N` features whose
  entry `(p, q)` is `∑ k, h (p, k) * w k q + b q`; it is followed by a clamp at zero from below (`relu`) or by the
  logistic function (`sigmoid`).  Row `p` of the result depends on row `p` of `h` only, so a tile of rows and the
  whole matrix produce the same rows (`pre_row`, `relu_row`, `sigmoid_row`).

  Three ways of computing a layer are read as this entrywise function, with no finiteness asked of any entry:
  * a kernel body: the tile times a stored weight matrix `[K, N]` accumulated into the zero matrix, plus a stored
    bias row `[1, N]` repeated down the rows, then the clamp against the zero splat (`kernel_pre`, `kernel_relu`);
  * a kernel body for a single output feature written along the lanes: the weight row `[1, K]` times the transposed
    tile `[K, M]`, plus the one bias entry repeated along the lanes, then the logistic function; the products are
    those of the row form with their factors exchanged (`kernel_sigmoid_lanes`);
  * the host: the matrix times the transpose of a weight matrix stored `[N, K]`, plus the bias vector made a row and
    repeated down the rows, then the maximum with the zero scalar spread over the matrix (`host_pre`, `host_relu`),
    or one over one plus the exponential of the negation (`host_sigmoid`), which is the logistic function.
-/
import Idealize.ShloMosaic.PureOps.Ideal.Laws
import Idealize.ShloMosaic.Lib.ValueIdx
import Idealize.ShloMosaic.Lib.ValueLayout
import Idealize.ShloMosaic.Lib.Pipeline.Value
import proofs.«116243_j9706626089657_2_alg».proof.Proof.LibMatmul
import proofs.«116243_j9706626089657_2_alg».proof.Proof.LibDot
import proofs.«116243_j9706626089657_2_alg».proof.Proof.LibRowBroadcast
import proofs.«116243_j9706626089657_2_alg».proof.Proof.LibAffineBodies

noncomputable section

open scoped BigOperators
open Idealize.ShloMosaic Idealize.ShloMosaic.ValueIdx

namespace DenseRows

variable {M M' K N : ℕ}

/-- Matrices of extended reals, indexed by the shape's multi-indices. -/
abbrev Mat (M N : ℕ) : Type := (⟨2, ![M, N]⟩ : Shape).Idx → EReal

/-- `h · w + b` on every row: entry `(p, q)` is `∑ k, h (p, k) * w k q + b q`. -/
def pre (h : Mat M K) (w : Fin K → Fin N → EReal) (b : Fin N → EReal) : Mat M N :=
  fun i => (∑ k : Fin K, h (ix2 (i 0) k) * w k (i 1)) + b (i 1)

/-- The layer clamped at zero from below. -/
def relu (h : Mat M K) (w : Fin K → Fin N → EReal) (b : Fin N → EReal) : Mat M N :=
  fun i => max (pre h w b i) 0

/-- The layer followed by the logistic function. -/
def sigmoid (h : Mat M K) (w : Fin K → Fin N → EReal) (b : Fin N → EReal) : Mat M N :=
  fun i => Ideal.logistic (pre h w b i)

/-! ## A row of the result depends on the same row of the operand only -/

theorem pre_row {h : Mat M K} {h' : Mat M' K} {w : Fin K → Fin N → EReal} {b : Fin N → EReal} {p : Fin M} {p' : Fin M'}
    (hx : ∀ k : Fin K, h (ix2 p k) = h' (ix2 p' k)) (q : Fin N) : pre h w b (ix2 p q) = pre h' w b (ix2 p' q) := by
  show (∑ k : Fin K, h (ix2 p k) * w k q) + b q = (∑ k : Fin K, h' (ix2 p' k) * w k q) + b q
  exact congrArg (· + b q) (Finset.sum_congr rfl fun k _ => by rw [hx k])

theorem relu_row {h : Mat M K} {h' : Mat M' K} {w : Fin K → Fin N → EReal} {b : Fin N → EReal} {p : Fin M} {p' : Fin M'}
    (hx : ∀ k : Fin K, h (ix2 p k) = h' (ix2 p' k)) (q : Fin N) : relu h w b (ix2 p q) = relu h' w b (ix2 p' q) :=
  congrArg (max · 0) (pre_row hx q)

theorem sigmoid_row {h : Mat M K} {h' : Mat M' K} {w : Fin K → Fin N → EReal} {b : Fin N → EReal} {p : Fin M} {p' : Fin M'}
    (hx : ∀ k : Fin K, h (ix2 p k) = h' (ix2 p' k)) (q : Fin N) : sigmoid h w b (ix2 p q) = sigmoid h' w b (ix2 p' q) :=
  congrArg Ideal.logistic (pre_row hx q)

/-! ## A two-dimensional transpose read at an entry -/

theorem transpose_apply2 {α : Type} (x : (⟨2, ![M, K]⟩ : Shape).Idx → α)
    (h : (⟨2, ![M, K]⟩ : Shape).Transposes [1, 0] (⟨2, ![K, M]⟩ : Shape)) (k : Fin K) (r : Fin M) :
    transpose (⟨2, ![K, M]⟩ : Shape) [1, 0] x h (ix2 k r) = x (ix2 r k) :=
  transpose_apply [1, 0] x h (ix2 k r) (ix2 r k) (fun b => match b with
    | ⟨0, _⟩ => rfl
    | ⟨1, _⟩ => rfl)

/-! ## The kernel's forms -/

/-- The tile times the stored weights into the zero matrix, plus the stored bias row. -/
theorem kernel_pre {φ₁ φ₂ : FTy} {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) φ₁) (wt : FVec Ideal (⟨2, ![K, N]⟩ : Shape) φ₂)
    (b : FVec Ideal (⟨2, ![1, N]⟩ : Shape) .f32)
    (hb : (⟨2, ![1, N]⟩ : Shape).Broadcasts (⟨2, ![M, N]⟩ : Shape)) :
    addf (matmul d none x wt (constant (⟨2, ![M, N]⟩ : Shape) .f32 0x00000000#32))
        (broadcastTo (⟨2, ![M, N]⟩ : Shape) b hb)
      = pre x (fun k q => wt (ix2 k q)) (fun q => b (ix2 0 q)) := by
  funext i
  obtain ⟨p, q, rfl⟩ : ∃ (p : Fin M) (q : Fin N), i = ix2 p q := ⟨i 0, i 1, eq_ix2 i⟩
  rw [addf_apply, Gcn.rowBroadcast_apply]
  exact congrArg (· + b (ix2 0 q)) (PlainMatmul.apply hd none x wt p q)

/-- The same followed by the clamp against the zero splat. -/
theorem kernel_relu {φ₁ φ₂ : FTy} {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) φ₁) (wt : FVec Ideal (⟨2, ![K, N]⟩ : Shape) φ₂)
    (b : FVec Ideal (⟨2, ![1, N]⟩ : Shape) .f32)
    (hb : (⟨2, ![1, N]⟩ : Shape).Broadcasts (⟨2, ![M, N]⟩ : Shape)) :
    maximumf (addf (matmul d none x wt (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = relu x (fun k q => wt (ix2 k q)) (fun q => b (ix2 0 q)) := by
  rw [kernel_pre hd x wt b hb]
  funext i
  exact Gcn.clamp_apply _ i

/-- One output feature written along the lanes: the weight row times the transposed tile, plus the one bias entry,
    then the logistic function.  Each product has the factors of the row form exchanged. -/
theorem kernel_sigmoid_lanes {φ₁ φ₂ : FTy}
    {d : DotDims (⟨2, ![1, K]⟩ : Shape) (⟨2, ![K, M]⟩ : Shape) (⟨2, ![1, M]⟩ : Shape)}
    (hd : PlainMatmul.IsPlain d)
    (w : FVec Ideal (⟨2, ![1, K]⟩ : Shape) φ₁) (hT : FVec Ideal (⟨2, ![K, M]⟩ : Shape) φ₂)
    (b : FVec Ideal (⟨2, ![1, 1]⟩ : Shape) .f32)
    (hb : (⟨2, ![1, 1]⟩ : Shape).Broadcasts (⟨2, ![1, M]⟩ : Shape)) (r : Fin M) :
    logistic (addf (matmul d none w hT (constant (⟨2, ![1, M]⟩ : Shape) .f32 0x00000000#32))
        (broadcastTo (⟨2, ![1, M]⟩ : Shape) b hb)) (ix2 (0 : Fin 1) r)
      = Ideal.logistic ((∑ k : Fin K, (hT (ix2 k r) : EReal) * (w (ix2 0 k) : EReal)) + b (ix2 0 0)) := by
  show Ideal.logistic (matmul d none w hT (constant (⟨2, ![1, M]⟩ : Shape) .f32 0x00000000#32) (ix2 (0 : Fin 1) r)
      + broadcastTo (⟨2, ![1, M]⟩ : Shape) b hb (ix2 (0 : Fin 1) r)) = _
  have e1 : matmul d none w hT (constant (⟨2, ![1, M]⟩ : Shape) .f32 0x00000000#32) (ix2 (0 : Fin 1) r)
      = ∑ k : Fin K, (w (ix2 0 k) : EReal) * (hT (ix2 k r) : EReal) := PlainMatmul.apply hd none w hT 0 r
  rw [e1, broadcastTo_apply b hb (ix2 (0 : Fin 1) r) (ix2 (0 : Fin 1) (0 : Fin 1)) (fun a => match a with
      | ⟨0, _⟩ => (if_pos rfl).symm
      | ⟨1, _⟩ => (if_pos rfl).symm)]
  exact congrArg (fun z => Ideal.logistic (z + b (ix2 0 0))) (Finset.sum_congr rfl fun k _ => mul_comm _ _)

/-! ## The host's forms -/

/-- The matrix times the transposed stored weights, plus the bias vector made a row and repeated down the rows. -/
theorem host_pre {d : DotDims (⟨2, ![M, K]⟩ : Shape) (⟨2, ![K, N]⟩ : Shape) (⟨2, ![M, N]⟩ : Shape)}
    (hd : PlainMatmul.IsPlain d)
    (h : FVec Ideal (⟨2, ![M, K]⟩ : Shape) .f32) (W : FVec Ideal (⟨2, ![N, K]⟩ : Shape) .f32)
    (bv : FVec Ideal (⟨1, ![N]⟩ : Shape) .f32)
    (ht : (⟨2, ![N, K]⟩ : Shape).Transposes [1, 0] (⟨2, ![K, N]⟩ : Shape))
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) :
    addf (Host.dotGeneral d none h (transpose (⟨2, ![K, N]⟩ : Shape) [1, 0] W ht))
        (broadcastInDim (⟨2, ![M, N]⟩ : Shape) ![0, 1] h2 (broadcastInDim (⟨2, ![1, N]⟩ : Shape) ![1] h1 bv))
      = pre h (fun k q => W (ix2 q k)) (fun q => bv (ix1 q)) := by
  funext i
  obtain ⟨p, q, rfl⟩ : ∃ (p : Fin M) (q : Fin N), i = ix2 p q := ⟨i 0, i 1, eq_ix2 i⟩
  rw [addf_apply, RowBroadcast.cols_apply h1 h2 bv p q, PlainMatmul.host_apply hd none h _ p q]
  exact congrArg (· + bv (ix1 q)) (Finset.sum_congr rfl fun k _ => congrArg (h (ix2 p k) * ·) (transpose_apply2 W ht k q))

/-- The maximum with the zero scalar spread over the matrix, at an entry. -/
theorem host_clamp_apply (a : FVec Ideal (⟨2, ![M, N]⟩ : Shape) .f32)
    (h0 : (⟨0, ![]⟩ : Shape).BroadcastsInDim (⟨2, ![M, N]⟩ : Shape) ![]) (i : (⟨2, ![M, N]⟩ : Shape).Idx) :
    maximumf a (broadcastInDim (⟨2, ![M, N]⟩ : Shape) ![] h0 (constant (F := Ideal) (⟨0, ![]⟩ : Shape) .f32 0x00000000#32)) i
      = max (a i) 0 := by
  rw [maximumf_apply, broadcastInDim_apply ![] h0 _ i ix0 (fun a => a.elim0), constant_apply, Ideal.ofBits_zero_f32]

/-- The host's layer clamped at zero. -/
theorem host_relu {d : DotDims (⟨2, ![M, K]⟩ : Shape) (⟨2, ![K, N]⟩ : Shape) (⟨2, ![M, N]⟩ : Shape)}
    (hd : PlainMatmul.IsPlain d)
    (h : FVec Ideal (⟨2, ![M, K]⟩ : Shape) .f32) (W : FVec Ideal (⟨2, ![N, K]⟩ : Shape) .f32)
    (bv : FVec Ideal (⟨1, ![N]⟩ : Shape) .f32)
    (ht : (⟨2, ![N, K]⟩ : Shape).Transposes [1, 0] (⟨2, ![K, N]⟩ : Shape))
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) :
    maximumf (addf (Host.dotGeneral d none h (transpose (⟨2, ![K, N]⟩ : Shape) [1, 0] W ht))
        (broadcastInDim (⟨2, ![M, N]⟩ : Shape) ![0, 1] h2 (broadcastInDim (⟨2, ![1, N]⟩ : Shape) ![1] h1 bv)))
        (broadcastInDim (⟨2, ![M, N]⟩ : Shape) ![] h0 (constant (F := Ideal) (⟨0, ![]⟩ : Shape) .f32 0x00000000#32))
      = relu h (fun k q => W (ix2 q k)) (fun q => bv (ix1 q)) := by
  rw [host_pre hd h W bv ht h1 h2]
  funext i
  exact host_clamp_apply _ h0 i

/-- The f32 pattern `0x3F800000` is the number one. -/
theorem one_f32 : Ideal.ofBits .f32 0x3F800000#32 = 1 := by
  simp [Ideal.ofBits, Ideal.ieee, -EReal.coe_mul]; norm_num

/-- One over one plus the exponential of the negation, with the ones spread from the scalar one, is the logistic
    function at every entry. -/
theorem host_sigmoid_apply (z : FVec Ideal (⟨2, ![M, N]⟩ : Shape) .f32)
    (h0 : (⟨0, ![]⟩ : Shape).BroadcastsInDim (⟨2, ![M, N]⟩ : Shape) ![]) (i : (⟨2, ![M, N]⟩ : Shape).Idx) :
    Host.divf (broadcastInDim (⟨2, ![M, N]⟩ : Shape) ![] h0 (constant (F := Ideal) (⟨0, ![]⟩ : Shape) .f32 0x3F800000#32))
        (addf (broadcastInDim (⟨2, ![M, N]⟩ : Shape) ![] h0 (constant (F := Ideal) (⟨0, ![]⟩ : Shape) .f32 0x3F800000#32))
          (Host.exp (Host.negf z))) i
      = Ideal.logistic (z i) := by
  have e : broadcastInDim (⟨2, ![M, N]⟩ : Shape) ![] h0 (constant (F := Ideal) (⟨0, ![]⟩ : Shape) .f32 0x3F800000#32) i = (1 : EReal) := by
    rw [broadcastInDim_apply ![] h0 _ i ix0 (fun a => a.elim0), constant_apply, one_f32]
  show Ideal.div (broadcastInDim (⟨2, ![M, N]⟩ : Shape) ![] h0 (constant (F := Ideal) (⟨0, ![]⟩ : Shape) .f32 0x3F800000#32) i)
      (broadcastInDim (⟨2, ![M, N]⟩ : Shape) ![] h0 (constant (F := Ideal) (⟨0, ![]⟩ : Shape) .f32 0x3F800000#32) i + Ideal.exp (-(z i)))
    = Ideal.div 1 (1 + Ideal.exp (-(z i)))
  rw [e]

end DenseRows

end
-- ==== Proof.Funnel.lean ====
/-
  The network: eleven dense layers applied to every row, the feature widths funnelling
  15 → 30 → 60 → 90 → 120 → 90 → 60 → 30 → 15 → 10 → 5 → 1.  The first ten layers are clamped at zero, the last is
  followed by the logistic function.  The weights are kept as functions `w k q` of the input feature `k` and the
  output feature `q`, the biases as functions of the output feature, so that the same term describes a program that
  stores a weight matrix as `[K, N]` and one that stores it as `[N, K]`.

  The network is cut in four stages (three, four and three clamped layers, then the last layer), and every stage
  takes a row to a row: the network's value on a row of any matrix is decided by that row (`net_row`).
-/
import proofs.«116243_j9706626089657_2_alg».proof.Proof.LibDenseRows

noncomputable section

open Idealize.ShloMosaic Idealize.ShloMosaic.ValueIdx DenseRows

namespace Funnel

variable {M M' : ℕ}

/-- The eleven layers' weights and biases. -/
@[ext] structure Params where
  w1 : Fin 15 → Fin 30 → EReal
  b1 : Fin 30 → EReal
  w2 : Fin 30 → Fin 60 → EReal
  b2 : Fin 60 → EReal
  w3 : Fin 60 → Fin 90 → EReal
  b3 : Fin 90 → EReal
  w4 : Fin 90 → Fin 120 → EReal
  b4 : Fin 120 → EReal
  w5 : Fin 120 → Fin 90 → EReal
  b5 : Fin 90 → EReal
  w6 : Fin 90 → Fin 60 → EReal
  b6 : Fin 60 → EReal
  w7 : Fin 60 → Fin 30 → EReal
  b7 : Fin 30 → EReal
  w8 : Fin 30 → Fin 15 → EReal
  b8 : Fin 15 → EReal
  w9 : Fin 15 → Fin 10 → EReal
  b9 : Fin 10 → EReal
  w10 : Fin 10 → Fin 5 → EReal
  b10 : Fin 5 → EReal
  w11 : Fin 5 → Fin 1 → EReal
  b11 : Fin 1 → EReal

/-- Vectors of extended reals, indexed by the shape's multi-indices. -/
abbrev Vec1 (N : ℕ) : Type := (⟨1, ![N]⟩ : Shape).Idx → EReal

/-- The parameters held as arrays: each weight matrix stored `[N, K]` (output feature first), each bias a
    vector of length `N`. -/
def ofArrays (a1 : Mat 30 15) (a2 : Vec1 30) (a3 : Mat 60 30) (a4 : Vec1 60) (a5 : Mat 90 60) (a6 : Vec1 90) (a7 : Mat 120 90) (a8 : Vec1 120) (a9 : Mat 90 120) (a10 : Vec1 90) (a11 : Mat 60 90) (a12 : Vec1 60) (a13 : Mat 30 60) (a14 : Vec1 30) (a15 : Mat 15 30) (a16 : Vec1 15) (a17 : Mat 10 15) (a18 : Vec1 10) (a19 : Mat 5 10) (a20 : Vec1 5) (a21 : Mat 1 5) (a22 : Vec1 1) : Params where
  w1 := fun k q => a1 (ix2 q k)
  b1 := fun q => a2 (ix1 q)
  w2 := fun k q => a3 (ix2 q k)
  b2 := fun q => a4 (ix1 q)
  w3 := fun k q => a5 (ix2 q k)
  b3 := fun q => a6 (ix1 q)
  w4 := fun k q => a7 (ix2 q k)
  b4 := fun q => a8 (ix1 q)
  w5 := fun k q => a9 (ix2 q k)
  b5 := fun q => a10 (ix1 q)
  w6 := fun k q => a11 (ix2 q k)
  b6 := fun q => a12 (ix1 q)
  w7 := fun k q => a13 (ix2 q k)
  b7 := fun q => a14 (ix1 q)
  w8 := fun k q => a15 (ix2 q k)
  b8 := fun q => a16 (ix1 q)
  w9 := fun k q => a17 (ix2 q k)
  b9 := fun q => a18 (ix1 q)
  w10 := fun k q => a19 (ix2 q k)
  b10 := fun q => a20 (ix1 q)
  w11 := fun k q => a21 (ix2 q k)
  b11 := fun q => a22 (ix1 q)

variable (P : Params)

/-- Layers 1 to 3. -/
def stageA (x : Mat M 15) : Mat M 90 := relu (relu (relu x P.w1 P.b1) P.w2 P.b2) P.w3 P.b3
/-- Layers 4 to 7. -/
def stageB (a : Mat M 90) : Mat M 30 := relu (relu (relu (relu a P.w4 P.b4) P.w5 P.b5) P.w6 P.b6) P.w7 P.b7
/-- Layers 8 to 10. -/
def stageC (c : Mat M 30) : Mat M 5 := relu (relu (relu c P.w8 P.b8) P.w9 P.b9) P.w10 P.b10
/-- The whole network: one number per row. -/
def net (x : Mat M 15) : Mat M 1 := sigmoid (stageC P (stageB P (stageA P x))) P.w11 P.b11

theorem stageA_row {x : Mat M 15} {x' : Mat M' 15} {p : Fin M} {p' : Fin M'}
    (hx : ∀ k : Fin 15, x (ix2 p k) = x' (ix2 p' k)) (q : Fin 90) : stageA P x (ix2 p q) = stageA P x' (ix2 p' q) :=
  relu_row (relu_row (relu_row hx)) q

theorem stageB_row {x : Mat M 90} {x' : Mat M' 90} {p : Fin M} {p' : Fin M'}
    (hx : ∀ k : Fin 90, x (ix2 p k) = x' (ix2 p' k)) (q : Fin 30) : stageB P x (ix2 p q) = stageB P x' (ix2 p' q) :=
  relu_row (relu_row (relu_row (relu_row hx))) q

theorem stageC_row {x : Mat M 30} {x' : Mat M' 30} {p : Fin M} {p' : Fin M'}
    (hx : ∀ k : Fin 30, x (ix2 p k) = x' (ix2 p' k)) (q : Fin 5) : stageC P x (ix2 p q) = stageC P x' (ix2 p' q) :=
  relu_row (relu_row (relu_row hx)) q

/-- The network's value on a row is decided by that row. -/
theorem net_row {x : Mat M 15} {x' : Mat M' 15} {p : Fin M} {p' : Fin M'}
    (hx : ∀ k : Fin 15, x (ix2 p k) = x' (ix2 p' k)) : net P x (ix2 p 0) = net P x' (ix2 p' 0) :=
  sigmoid_row (stageC_row P (stageB_row P (stageA_row P hx))) 0

end Funnel

end
-- ==== Proof.Body.lean ====
/-
  What the kernel's body computes on one tile of rows, over the extended reals.

  The body reads a tile `x0` of 16384 rows and 15 features, ten weight matrices stored `[K, N]` with their bias rows
  `[1, N]`, and the last layer's weight row `[1, 5]` with its one bias entry.  Ten times it multiplies the tile by a
  weight matrix into the zero matrix, adds the bias row to every row and clamps at zero (narrowing to bf16 between
  the layers is the identity on extended reals).  It then transposes the 16384 × 5 result, multiplies the weight row
  by it, which lays the tile's one output feature along the lanes, adds the bias entry and applies the logistic
  function.  Entry `(0, r)` of what it stores is therefore the network's value on row `r` of the tile
  (`body_apply`), the weights read as `w k q = W (k, q)` and, in the last layer, `w k 0 = W (0, k)`.
-/
import proofs.«116243_j9706626089657_2_alg».proof.Proof.Gen.KernelIdeal.Skeleton
import proofs.«116243_j9706626089657_2_alg».proof.Proof.Funnel

noncomputable section

open scoped BigOperators
open Idealize.ShloMosaic Idealize.ShloMosaic.ValueIdx DenseRows

namespace Cert.KernelIdeal.Body

open Cert.KernelIdeal Cert.KernelIdeal.Gen

/-! ## The eleven products are plain row-by-column products -/

theorem plain1 : PlainMatmul.IsPlain dot_S16384x15_S15x30_S16384x30_1_0_0_1_n_n := ⟨rfl, rfl, rfl, rfl, rfl, rfl⟩
theorem plain2 : PlainMatmul.IsPlain dot_S16384x30_S30x60_S16384x60_1_0_0_1_n_n := ⟨rfl, rfl, rfl, rfl, rfl, rfl⟩
theorem plain3 : PlainMatmul.IsPlain dot_S16384x60_S60x90_S16384x90_1_0_0_1_n_n := ⟨rfl, rfl, rfl, rfl, rfl, rfl⟩
theorem plain4 : PlainMatmul.IsPlain dot_S16384x90_S90x120_S16384x120_1_0_0_1_n_n := ⟨rfl, rfl, rfl, rfl, rfl, rfl⟩
theorem plain5 : PlainMatmul.IsPlain dot_S16384x120_S120x90_S16384x90_1_0_0_1_n_n := ⟨rfl, rfl, rfl, rfl, rfl, rfl⟩
theorem plain6 : PlainMatmul.IsPlain dot_S16384x90_S90x60_S16384x60_1_0_0_1_n_n := ⟨rfl, rfl, rfl, rfl, rfl, rfl⟩
theorem plain7 : PlainMatmul.IsPlain dot_S16384x60_S60x30_S16384x30_1_0_0_1_n_n := ⟨rfl, rfl, rfl, rfl, rfl, rfl⟩
theorem plain8 : PlainMatmul.IsPlain dot_S16384x30_S30x15_S16384x15_1_0_0_1_n_n := ⟨rfl, rfl, rfl, rfl, rfl, rfl⟩
theorem plain9 : PlainMatmul.IsPlain dot_S16384x15_S15x10_S16384x10_1_0_0_1_n_n := ⟨rfl, rfl, rfl, rfl, rfl, rfl⟩
theorem plain10 : PlainMatmul.IsPlain dot_S16384x10_S10x5_S16384x5_1_0_0_1_n_n := ⟨rfl, rfl, rfl, rfl, rfl, rfl⟩
theorem plain11 : PlainMatmul.IsPlain dot_S1x5_S5x16384_S1x16384_1_0_0_1_n_n := ⟨rfl, rfl, rfl, rfl, rfl, rfl⟩

/-- The layers' weights and biases as the body's operand blocks hold them. -/
def params (x1 : Vec Ideal S15x30 .bf16) (x2 : Vec Ideal S1x30 .f32) (x3 : Vec Ideal S30x60 .bf16) (x4 : Vec Ideal S1x60 .f32) (x5 : Vec Ideal S60x90 .bf16) (x6 : Vec Ideal S1x90 .f32) (x7 : Vec Ideal S90x120 .bf16) (x8 : Vec Ideal S1x120 .f32) (x9 : Vec Ideal S120x90 .bf16) (x10 : Vec Ideal S1x90 .f32) (x11 : Vec Ideal S90x60 .bf16) (x12 : Vec Ideal S1x60 .f32) (x13 : Vec Ideal S60x30 .bf16) (x14 : Vec Ideal S1x30 .f32) (x15 : Vec Ideal S30x15 .bf16) (x16 : Vec Ideal S1x15 .f32) (x17 : Vec Ideal S15x10 .bf16) (x18 : Vec Ideal S1x10 .f32) (x19 : Vec Ideal S10x5 .bf16) (x20 : Vec Ideal S1x5 .f32) (x21 : Vec Ideal S1x5 .bf16) (x22 : Vec Ideal S1x1 .f32) : Funnel.Params where
  w1 := fun k q => x1 (ix2 k q)
  b1 := fun q => x2 (ix2 0 q)
  w2 := fun k q => x3 (ix2 k q)
  b2 := fun q => x4 (ix2 0 q)
  w3 := fun k q => x5 (ix2 k q)
  b3 := fun q => x6 (ix2 0 q)
  w4 := fun k q => x7 (ix2 k q)
  b4 := fun q => x8 (ix2 0 q)
  w5 := fun k q => x9 (ix2 k q)
  b5 := fun q => x10 (ix2 0 q)
  w6 := fun k q => x11 (ix2 k q)
  b6 := fun q => x12 (ix2 0 q)
  w7 := fun k q => x13 (ix2 k q)
  b7 := fun q => x14 (ix2 0 q)
  w8 := fun k q => x15 (ix2 k q)
  b8 := fun q => x16 (ix2 0 q)
  w9 := fun k q => x17 (ix2 k q)
  b9 := fun q => x18 (ix2 0 q)
  w10 := fun k q => x19 (ix2 k q)
  b10 := fun q => x20 (ix2 0 q)
  w11 := fun k q => x21 (ix2 q k)
  b11 := fun q => x22 (ix2 0 q)

/-! ## The stages -/

/-- Layers 1 to 3 of the tile. -/
theorem stageA_eq (x0 : Vec Ideal S16384x15 .f32) (x1 : Vec Ideal S15x30 .bf16) (x2 : Vec Ideal S1x30 .f32) (x3 : Vec Ideal S30x60 .bf16) (x4 : Vec Ideal S1x60 .f32) (x5 : Vec Ideal S60x90 .bf16) (x6 : Vec Ideal S1x90 .f32) :
    (k0_pay2 (F := Ideal) x0 x1 x2 x3 x4 x5 x6 : S16384x90.Idx → EReal)
      = relu (relu (relu x0 (fun k q => x1 (ix2 k q)) (fun q => x2 (ix2 0 q))) (fun k q => x3 (ix2 k q)) (fun q => x4 (ix2 0 q))) (fun k q => x5 (ix2 k q)) (fun q => x6 (ix2 0 q)) := by
  unfold k0_pay2
  simp only [shapeCast_self]
  rw [kernel_relu plain1, kernel_relu plain2, kernel_relu plain3]
  rfl

/-- The weights of layer 4 pass through a cast to their own shape. -/
theorem pay3_eq (x7 : Vec Ideal S90x120 .bf16) : k0_pay3 (F := Ideal) x7 = x7 := shapeCast_self _ _

/-- Layers 4 to 7. -/
theorem stageB_eq (a : FVec Ideal S16384x90 .bf16) (x7 : FVec Ideal S90x120 .bf16) (x8 : Vec Ideal S1x120 .f32) (x9 : Vec Ideal S120x90 .bf16) (x10 : Vec Ideal S1x90 .f32) (x11 : Vec Ideal S90x60 .bf16) (x12 : Vec Ideal S1x60 .f32) (x13 : Vec Ideal S60x30 .bf16) (x14 : Vec Ideal S1x30 .f32) :
    (k0_pay4 (F := Ideal) a x7 x8 x9 x10 x11 x12 x13 x14 : S16384x30.Idx → EReal)
      = relu (relu (relu (relu a (fun k q => x7 (ix2 k q)) (fun q => x8 (ix2 0 q))) (fun k q => x9 (ix2 k q)) (fun q => x10 (ix2 0 q))) (fun k q => x11 (ix2 k q)) (fun q => x12 (ix2 0 q))) (fun k q => x13 (ix2 k q)) (fun q => x14 (ix2 0 q)) := by
  unfold k0_pay4
  simp only [shapeCast_self]
  rw [kernel_relu plain4, kernel_relu plain5, kernel_relu plain6, kernel_relu plain7]
  rfl

/-- Layers 8 to 10 and the last layer along the lanes: entry `(0, r)` of the stored block. -/
theorem stageC_apply (c : FVec Ideal S16384x30 .bf16) (x15 : Vec Ideal S30x15 .bf16) (x16 : Vec Ideal S1x15 .f32) (x17 : Vec Ideal S15x10 .bf16) (x18 : Vec Ideal S1x10 .f32) (x19 : Vec Ideal S10x5 .bf16) (x20 : Vec Ideal S1x5 .f32) (x21 : Vec Ideal S1x5 .bf16) (x22 : Vec Ideal S1x1 .f32) (r : Fin 16384) :
    k0_pay1 (F := Ideal) (k0_pay5 c x15 x16 x17 x18 x19 x20 x21) (k0_pay6 x22) (ix2 0 r)
      = sigmoid (relu (relu (relu c (fun k q => x15 (ix2 k q)) (fun q => x16 (ix2 0 q))) (fun k q => x17 (ix2 k q)) (fun q => x18 (ix2 0 q))) (fun k q => x19 (ix2 k q)) (fun q => x20 (ix2 0 q)))
          (fun k q => x21 (ix2 q k)) (fun q => x22 (ix2 0 q)) (ix2 r 0) := by
  unfold k0_pay1 k0_pay5 k0_pay6
  simp only [shapeCast_self]
  rw [kernel_relu plain8, kernel_relu plain9, kernel_relu plain10]
  refine (kernel_sigmoid_lanes plain11 _ _ _ _ r).trans ?_
  refine congrArg (fun z => Ideal.logistic (z + x22 (ix2 0 0))) (Finset.sum_congr rfl fun k _ => ?_)
  refine congrArg (· * x21 (ix2 0 k)) ?_
  rw [truncf_apply, transpose_apply2]
  rfl

/-- The body's stored block at `(0, r)` is the network's value on row `r` of the tile. -/
theorem body_apply (x0 : Vec Ideal S16384x15 .f32) (x1 : Vec Ideal S15x30 .bf16) (x2 : Vec Ideal S1x30 .f32) (x3 : Vec Ideal S30x60 .bf16) (x4 : Vec Ideal S1x60 .f32) (x5 : Vec Ideal S60x90 .bf16) (x6 : Vec Ideal S1x90 .f32) (x7 : Vec Ideal S90x120 .bf16) (x8 : Vec Ideal S1x120 .f32) (x9 : Vec Ideal S120x90 .bf16) (x10 : Vec Ideal S1x90 .f32) (x11 : Vec Ideal S90x60 .bf16) (x12 : Vec Ideal S1x60 .f32) (x13 : Vec Ideal S60x30 .bf16) (x14 : Vec Ideal S1x30 .f32) (x15 : Vec Ideal S30x15 .bf16) (x16 : Vec Ideal S1x15 .f32) (x17 : Vec Ideal S15x10 .bf16) (x18 : Vec Ideal S1x10 .f32) (x19 : Vec Ideal S10x5 .bf16) (x20 : Vec Ideal S1x5 .f32) (x21 : Vec Ideal S1x5 .bf16) (x22 : Vec Ideal S1x1 .f32) (r : Fin 16384) :
    k0_pay1 (F := Ideal) (k0_pay5 (k0_pay4 (k0_pay2 x0 x1 x2 x3 x4 x5 x6) (k0_pay3 x7) x8 x9 x10 x11 x12 x13 x14) x15 x16 x17 x18 x19 x20 x21) (k0_pay6 x22) (ix2 0 r)
      = Funnel.net (params x1 x2 x3 x4 x5 x6 x7 x8 x9 x10 x11 x12 x13 x14 x15 x16 x17 x18 x19 x20 x21 x22) x0 (ix2 r 0) := by
  rw [stageC_apply, pay3_eq, stageB_eq, stageA_eq]
  rfl

/-- The body's parameters are `P` when its operand blocks hold `P`'s entries: a weight block at `(k, q)` the
    weight from feature `k` to feature `q` (the last layer's block, a row, at `(q, k)`), a bias block at `(0, q)`
    the bias of feature `q`. -/
theorem params_eq (P : Funnel.Params) (x1 : Vec Ideal S15x30 .bf16) (x2 : Vec Ideal S1x30 .f32) (x3 : Vec Ideal S30x60 .bf16) (x4 : Vec Ideal S1x60 .f32) (x5 : Vec Ideal S60x90 .bf16) (x6 : Vec Ideal S1x90 .f32) (x7 : Vec Ideal S90x120 .bf16) (x8 : Vec Ideal S1x120 .f32) (x9 : Vec Ideal S120x90 .bf16) (x10 : Vec Ideal S1x90 .f32) (x11 : Vec Ideal S90x60 .bf16) (x12 : Vec Ideal S1x60 .f32) (x13 : Vec Ideal S60x30 .bf16) (x14 : Vec Ideal S1x30 .f32) (x15 : Vec Ideal S30x15 .bf16) (x16 : Vec Ideal S1x15 .f32) (x17 : Vec Ideal S15x10 .bf16) (x18 : Vec Ideal S1x10 .f32) (x19 : Vec Ideal S10x5 .bf16) (x20 : Vec Ideal S1x5 .f32) (x21 : Vec Ideal S1x5 .bf16) (x22 : Vec Ideal S1x1 .f32)
    (hw1 : ∀ (k : Fin 15) (q : Fin 30), x1 (ix2 k q) = P.w1 k q)
    (hb1 : ∀ q : Fin 30, x2 (ix2 0 q) = P.b1 q)
    (hw2 : ∀ (k : Fin 30) (q : Fin 60), x3 (ix2 k q) = P.w2 k q)
    (hb2 : ∀ q : Fin 60, x4 (ix2 0 q) = P.b2 q)
    (hw3 : ∀ (k : Fin 60) (q : Fin 90), x5 (ix2 k q) = P.w3 k q)
    (hb3 : ∀ q : Fin 90, x6 (ix2 0 q) = P.b3 q)
    (hw4 : ∀ (k : Fin 90) (q : Fin 120), x7 (ix2 k q) = P.w4 k q)
    (hb4 : ∀ q : Fin 120, x8 (ix2 0 q) = P.b4 q)
    (hw5 : ∀ (k : Fin 120) (q : Fin 90), x9 (ix2 k q) = P.w5 k q)
    (hb5 : ∀ q : Fin 90, x10 (ix2 0 q) = P.b5 q)
    (hw6 : ∀ (k : Fin 90) (q : Fin 60), x11 (ix2 k q) = P.w6 k q)
    (hb6 : ∀ q : Fin 60, x12 (ix2 0 q) = P.b6 q)
    (hw7 : ∀ (k : Fin 60) (q : Fin 30), x13 (ix2 k q) = P.w7 k q)
    (hb7 : ∀ q : Fin 30, x14 (ix2 0 q) = P.b7 q)
    (hw8 : ∀ (k : Fin 30) (q : Fin 15), x15 (ix2 k q) = P.w8 k q)
    (hb8 : ∀ q : Fin 15, x16 (ix2 0 q) = P.b8 q)
    (hw9 : ∀ (k : Fin 15) (q : Fin 10), x17 (ix2 k q) = P.w9 k q)
    (hb9 : ∀ q : Fin 10, x18 (ix2 0 q) = P.b9 q)
    (hw10 : ∀ (k : Fin 10) (q : Fin 5), x19 (ix2 k q) = P.w10 k q)
    (hb10 : ∀ q : Fin 5, x20 (ix2 0 q) = P.b10 q)
    (hw11 : ∀ (k : Fin 5) (q : Fin 1), x21 (ix2 q k) = P.w11 k q)
    (hb11 : ∀ q : Fin 1, x22 (ix2 0 q) = P.b11 q) :
    params x1 x2 x3 x4 x5 x6 x7 x8 x9 x10 x11 x12 x13 x14 x15 x16 x17 x18 x19 x20 x21 x22 = P :=
  Funnel.Params.ext (funext fun k => funext fun q => hw1 k q)
    (funext fun q => hb1 q)
    (funext fun k => funext fun q => hw2 k q)
    (funext fun q => hb2 q)
    (funext fun k => funext fun q => hw3 k q)
    (funext fun q => hb3 q)
    (funext fun k => funext fun q => hw4 k q)
    (funext fun q => hb4 q)
    (funext fun k => funext fun q => hw5 k q)
    (funext fun q => hb5 q)
    (funext fun k => funext fun q => hw6 k q)
    (funext fun q => hb6 q)
    (funext fun k => funext fun q => hw7 k q)
    (funext fun q => hb7 q)
    (funext fun k => funext fun q => hw8 k q)
    (funext fun q => hb8 q)
    (funext fun k => funext fun q => hw9 k q)
    (funext fun q => hb9 q)
    (funext fun k => funext fun q => hw10 k q)
    (funext fun q => hb10 q)
    (funext fun k => funext fun q => hw11 k q)
    (funext fun q => hb11 q)

/-- Row `r` of tile `n` is row `16384 · n + r` of the whole input. -/
theorem row_lt {n r : ℕ} (hn : n < 32) (hr : r < 16384) : 16384 * n + r < 524288 := by omega

/-- THE TILE'S RESULT.  If the tile is rows `16384 · n …` of a matrix `A` and the operand blocks hold `P`, the stored
    block's entry `(0, r)` is the network's value on row `16384 · n + r` of `A`. -/
theorem block_value (P : Funnel.Params) (A : Mat 524288 15) (n : ℕ) (hn : n < 32) (x0 : Vec Ideal S16384x15 .f32) (x1 : Vec Ideal S15x30 .bf16) (x2 : Vec Ideal S1x30 .f32) (x3 : Vec Ideal S30x60 .bf16) (x4 : Vec Ideal S1x60 .f32) (x5 : Vec Ideal S60x90 .bf16) (x6 : Vec Ideal S1x90 .f32) (x7 : Vec Ideal S90x120 .bf16) (x8 : Vec Ideal S1x120 .f32) (x9 : Vec Ideal S120x90 .bf16) (x10 : Vec Ideal S1x90 .f32) (x11 : Vec Ideal S90x60 .bf16) (x12 : Vec Ideal S1x60 .f32) (x13 : Vec Ideal S60x30 .bf16) (x14 : Vec Ideal S1x30 .f32) (x15 : Vec Ideal S30x15 .bf16) (x16 : Vec Ideal S1x15 .f32) (x17 : Vec Ideal S15x10 .bf16) (x18 : Vec Ideal S1x10 .f32) (x19 : Vec Ideal S10x5 .bf16) (x20 : Vec Ideal S1x5 .f32) (x21 : Vec Ideal S1x5 .bf16) (x22 : Vec Ideal S1x1 .f32)
    (hx : ∀ (r : Fin 16384) (k : Fin 15), x0 (ix2 r k) = A (ix2 (⟨16384 * n + r.val, row_lt hn r.isLt⟩ : Fin 524288) k))
    (hw1 : ∀ (k : Fin 15) (q : Fin 30), x1 (ix2 k q) = P.w1 k q)
    (hb1 : ∀ q : Fin 30, x2 (ix2 0 q) = P.b1 q)
    (hw2 : ∀ (k : Fin 30) (q : Fin 60), x3 (ix2 k q) = P.w2 k q)
    (hb2 : ∀ q : Fin 60, x4 (ix2 0 q) = P.b2 q)
    (hw3 : ∀ (k : Fin 60) (q : Fin 90), x5 (ix2 k q) = P.w3 k q)
    (hb3 : ∀ q : Fin 90, x6 (ix2 0 q) = P.b3 q)
    (hw4 : ∀ (k : Fin 90) (q : Fin 120), x7 (ix2 k q) = P.w4 k q)
    (hb4 : ∀ q : Fin 120, x8 (ix2 0 q) = P.b4 q)
    (hw5 : ∀ (k : Fin 120) (q : Fin 90), x9 (ix2 k q) = P.w5 k q)
    (hb5 : ∀ q : Fin 90, x10 (ix2 0 q) = P.b5 q)
    (hw6 : ∀ (k : Fin 90) (q : Fin 60), x11 (ix2 k q) = P.w6 k q)
    (hb6 : ∀ q : Fin 60, x12 (ix2 0 q) = P.b6 q)
    (hw7 : ∀ (k : Fin 60) (q : Fin 30), x13 (ix2 k q) = P.w7 k q)
    (hb7 : ∀ q : Fin 30, x14 (ix2 0 q) = P.b7 q)
    (hw8 : ∀ (k : Fin 30) (q : Fin 15), x15 (ix2 k q) = P.w8 k q)
    (hb8 : ∀ q : Fin 15, x16 (ix2 0 q) = P.b8 q)
    (hw9 : ∀ (k : Fin 15) (q : Fin 10), x17 (ix2 k q) = P.w9 k q)
    (hb9 : ∀ q : Fin 10, x18 (ix2 0 q) = P.b9 q)
    (hw10 : ∀ (k : Fin 10) (q : Fin 5), x19 (ix2 k q) = P.w10 k q)
    (hb10 : ∀ q : Fin 5, x20 (ix2 0 q) = P.b10 q)
    (hw11 : ∀ (k : Fin 5) (q : Fin 1), x21 (ix2 q k) = P.w11 k q)
    (hb11 : ∀ q : Fin 1, x22 (ix2 0 q) = P.b11 q)
    (r : Fin 16384) :
    k0_pay1 (F := Ideal) (k0_pay5 (k0_pay4 (k0_pay2 x0 x1 x2 x3 x4 x5 x6) (k0_pay3 x7) x8 x9 x10 x11 x12 x13 x14) x15 x16 x17 x18 x19 x20 x21) (k0_pay6 x22) (ix2 0 r)
      = Funnel.net P A (ix2 (⟨16384 * n + r.val, row_lt hn r.isLt⟩ : Fin 524288) 0) := by
  rw [body_apply, params_eq P x1 x2 x3 x4 x5 x6 x7 x8 x9 x10 x11 x12 x13 x14 x15 x16 x17 x18 x19 x20 x21 x22 hw1 hb1 hw2 hb2 hw3 hb3 hw4 hb4 hw5 hb5 hw6 hb6 hw7 hb7 hw8 hb8 hw9 hb9 hw10 hb10 hw11 hb11]
  exact Funnel.net_row P (hx r)

end Cert.KernelIdeal.Body

end
-- ==== Proof.Blocks.lean ====
/-
  What the kernel's operand blocks hold, in terms of the arguments.

  Before the launch the host transposes each of the first ten weight matrices (stored `[N, K]`) to `[K, N]` and lays
  each bias vector out as one row `[1, N]`; narrowing to bf16 is the identity on extended reals.  Each of these arrays
  is one block, the same at every grid point, so at every point a weight block holds at `(k, q)` the argument's
  entry `(q, k)` and a bias block at `(0, q)` the argument's entry `q`.  The last layer's weight row is passed as it
  is.  The input is cut into 32 tiles of 16384 rows: the tile of point `t` holds at `(r, k)` the input's entry
  `(16384 · t + r, k)`.
-/
import proofs.«116243_j9706626089657_2_alg».proof.Proof.Gen.KernelIdeal.Frame
import proofs.«116243_j9706626089657_2_alg».proof.Proof.LibLayout
import proofs.«116243_j9706626089657_2_alg».proof.Proof.Body
import Idealize.ShloMosaic.Lib.StableHlo.Run

set_option maxRecDepth 16384

noncomputable section

open Idealize.ShloMosaic Idealize.ShloMosaic.TcCoe Idealize.ShloMosaic.ValueIdx Idealize.SL.Sem DenseRows
open Idealize.ShloMosaic.StableHlo

namespace Cert.KernelIdeal.Blocks

open Cert.KernelIdeal Cert.KernelIdeal.Gen

variable (m : (ℓ : Loc nD τ sig) → Buf (Elt Ideal) ℓ)

/-! ## The index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)
theorem idx21 : ∀ t : Fin cfg0.N, win0_21.index t (0 : Fin 2) = 0 ∧ win0_21.index t (1 : Fin 2) = 0 :=
  (by decide +kernel : ∀ t : Fin grid0.N, _)
theorem idx22 : ∀ t : Fin cfg0.N, win0_22.index t (0 : Fin 2) = 0 ∧ win0_22.index t (1 : Fin 2) = 0 :=
  (by decide +kernel : ∀ t : Fin grid0.N, _)
theorem idx23 : ∀ t : Fin cfg0.N, win0_23.index t (0 : Fin 2) = 0 ∧ win0_23.index t (1 : Fin 2) = t.val :=
  (by decide +kernel : ∀ t : Fin grid0.N, _)

/-- The grid has 32 points. -/
theorem tlt (t : Fin cfg0.N) : t.val < 32 := lt_of_lt_of_eq t.isLt N_0

/-! ## The weights and biases -/

/-- Layer 1's weights as the region finds them: the argument transposed (narrowing is the identity). -/
theorem V_w1 (c : Dev nD) : (V m c main_v1 : S15x30.Idx → EReal)
    = (truncf (F := Ideal) .bf16 (transpose S15x30 [1, 0] ((m ((c : Thread nD τ).loc main_arg1)) : S30x15.Idx → EReal) transposes_S30x15_S15x30_1_0) bitsLt_bf16_f32 : S15x30.Idx → EReal) := by
  show StableHlo.after hostOps0 (fun b => m (c, b)) (Proc.devRef .tc main_v1) = _
  after_results

theorem wblk1 (c : Dev nD) (t : Fin cfg0.N) (k : Fin 15) (q : Fin 30) :
    iblk m c 1 t (ix2 k q) = (m ((c : Thread nD τ).loc main_arg1)) (ix2 q k) := by
  show V m c main_v1 (((cfg0.win 1).blk t).view.emb (ix2 k q)) = _
  have he : ((cfg0.win 1).blk t).view.emb (ix2 k q) = ix2 k q := by
    obtain ⟨e0, e1⟩ := idx1 t
    funext a; apply Fin.ext
    match a with
    | ⟨0, _⟩ => show win0_1.index t (0 : Fin 2) * 15 + 1 * k.val = k.val; omega
    | ⟨1, _⟩ => show win0_1.index t (1 : Fin 2) * 30 + 1 * q.val = q.val; omega
  rw [he, V_w1, truncf_apply, transpose_apply2]

/-- Layer 1's bias as the region finds it: the vector laid out as one row. -/
theorem V_b1 (c : Dev nD) : (V m c main_v2 : S1x30.Idx → EReal)
    = (shapeCast S1x30 ((m ((c : Thread nD τ).loc main_arg2)) : S30.Idx → EReal) shapeCasts_S30_S1x30 : S1x30.Idx → EReal) := by
  show StableHlo.after hostOps0 (fun b => m (c, b)) (Proc.devRef .tc main_v2) = _
  after_results
  rfl

theorem bblk1 (c : Dev nD) (t : Fin cfg0.N) (q : Fin 30) :
    iblk m c 2 t (ix2 0 q) = (m ((c : Thread nD τ).loc main_arg2)) (ix1 q) := by
  show V m c main_v2 (((cfg0.win 2).blk t).view.emb (ix2 0 q)) = _
  have he : ((cfg0.win 2).blk t).view.emb (ix2 (0 : Fin 1) q) = ix2 (0 : Fin 1) q := by
    obtain ⟨e0, e1⟩ := idx2 t
    funext a; apply Fin.ext
    match a with
    | ⟨0, _⟩ => show win0_2.index t (0 : Fin 2) * 1 + 1 * 0 = 0; omega
    | ⟨1, _⟩ => show win0_2.index t (1 : Fin 2) * 30 + 1 * q.val = q.val; omega
  rw [he, V_b1]
  exact RowOfFlat.apply _ _ q

/-- Layer 2's weights as the region finds them: the argument transposed (narrowing is the identity). -/
theorem V_w2 (c : Dev nD) : (V m c main_v4 : S30x60.Idx → EReal)
    = (truncf (F := Ideal) .bf16 (transpose S30x60 [1, 0] ((m ((c : Thread nD τ).loc main_arg3)) : S60x30.Idx → EReal) transposes_S60x30_S30x60_1_0) bitsLt_bf16_f32 : S30x60.Idx → EReal) := by
  show StableHlo.after hostOps0 (fun b => m (c, b)) (Proc.devRef .tc main_v4) = _
  after_results

theorem wblk2 (c : Dev nD) (t : Fin cfg0.N) (k : Fin 30) (q : Fin 60) :
    iblk m c 3 t (ix2 k q) = (m ((c : Thread nD τ).loc main_arg3)) (ix2 q k) := by
  show V m c main_v4 (((cfg0.win 3).blk t).view.emb (ix2 k q)) = _
  have he : ((cfg0.win 3).blk t).view.emb (ix2 k q) = ix2 k q := by
    obtain ⟨e0, e1⟩ := idx3 t
    funext a; apply Fin.ext
    match a with
    | ⟨0, _⟩ => show win0_3.index t (0 : Fin 2) * 30 + 1 * k.val = k.val; omega
    | ⟨1, _⟩ => show win0_3.index t (1 : Fin 2) * 60 + 1 * q.val = q.val; omega
  rw [he, V_w2, truncf_apply, transpose_apply2]

/-- Layer 2's bias as the region finds it: the vector laid out as one row. -/
theorem V_b2 (c : Dev nD) : (V m c main_v5 : S1x60.Idx → EReal)
    = (shapeCast S1x60 ((m ((c : Thread nD τ).loc main_arg4)) : S60.Idx → EReal) shapeCasts_S60_S1x60 : S1x60.Idx → EReal) := by
  show StableHlo.after hostOps0 (fun b => m (c, b)) (Proc.devRef .tc main_v5) = _
  after_results
  rfl

theorem bblk2 (c : Dev nD) (t : Fin cfg0.N) (q : Fin 60) :
    iblk m c 4 t (ix2 0 q) = (m ((c : Thread nD τ).loc main_arg4)) (ix1 q) := by
  show V m c main_v5 (((cfg0.win 4).blk t).view.emb (ix2 0 q)) = _
  have he : ((cfg0.win 4).blk t).view.emb (ix2 (0 : Fin 1) q) = ix2 (0 : Fin 1) q := by
    obtain ⟨e0, e1⟩ := idx4 t
    funext a; apply Fin.ext
    match a with
    | ⟨0, _⟩ => show win0_4.index t (0 : Fin 2) * 1 + 1 * 0 = 0; omega
    | ⟨1, _⟩ => show win0_4.index t (1 : Fin 2) * 60 + 1 * q.val = q.val; omega
  rw [he, V_b2]
  exact RowOfFlat.apply _ _ q

/-- Layer 3's weights as the region finds them: the argument transposed (narrowing is the identity). -/
theorem V_w3 (c : Dev nD) : (V m c main_v7 : S60x90.Idx → EReal)
    = (truncf (F := Ideal) .bf16 (transpose S60x90 [1, 0] ((m ((c : Thread nD τ).loc main_arg5)) : S90x60.Idx → EReal) transposes_S90x60_S60x90_1_0) bitsLt_bf16_f32 : S60x90.Idx → EReal) := by
  show StableHlo.after hostOps0 (fun b => m (c, b)) (Proc.devRef .tc main_v7) = _
  after_results

theorem wblk3 (c : Dev nD) (t : Fin cfg0.N) (k : Fin 60) (q : Fin 90) :
    iblk m c 5 t (ix2 k q) = (m ((c : Thread nD τ).loc main_arg5)) (ix2 q k) := by
  show V m c main_v7 (((cfg0.win 5).blk t).view.emb (ix2 k q)) = _
  have he : ((cfg0.win 5).blk t).view.emb (ix2 k q) = ix2 k q := by
    obtain ⟨e0, e1⟩ := idx5 t
    funext a; apply Fin.ext
    match a with
    | ⟨0, _⟩ => show win0_5.index t (0 : Fin 2) * 60 + 1 * k.val = k.val; omega
    | ⟨1, _⟩ => show win0_5.index t (1 : Fin 2) * 90 + 1 * q.val = q.val; omega
  rw [he, V_w3, truncf_apply, transpose_apply2]

/-- Layer 3's bias as the region finds it: the vector laid out as one row. -/
theorem V_b3 (c : Dev nD) : (V m c main_v8 : S1x90.Idx → EReal)
    = (shapeCast S1x90 ((m ((c : Thread nD τ).loc main_arg6)) : S90.Idx → EReal) shapeCasts_S90_S1x90 : S1x90.Idx → EReal) := by
  show StableHlo.after hostOps0 (fun b => m (c, b)) (Proc.devRef .tc main_v8) = _
  after_results
  rfl

theorem bblk3 (c : Dev nD) (t : Fin cfg0.N) (q : Fin 90) :
    iblk m c 6 t (ix2 0 q) = (m ((c : Thread nD τ).loc main_arg6)) (ix1 q) := by
  show V m c main_v8 (((cfg0.win 6).blk t).view.emb (ix2 0 q)) = _
  have he : ((cfg0.win 6).blk t).view.emb (ix2 (0 : Fin 1) q) = ix2 (0 : Fin 1) q := by
    obtain ⟨e0, e1⟩ := idx6 t
    funext a; apply Fin.ext
    match a with
    | ⟨0, _⟩ => show win0_6.index t (0 : Fin 2) * 1 + 1 * 0 = 0; omega
    | ⟨1, _⟩ => show win0_6.index t (1 : Fin 2) * 90 + 1 * q.val = q.val; omega
  rw [he, V_b3]
  exact RowOfFlat.apply _ _ q

/-- Layer 4's weights as the region finds them: the argument transposed (narrowing is the identity). -/
theorem V_w4 (c : Dev nD) : (V m c main_v10 : S90x120.Idx → EReal)
    = (truncf (F := Ideal) .bf16 (transpose S90x120 [1, 0] ((m ((c : Thread nD τ).loc main_arg7)) : S120x90.Idx → EReal) transposes_S120x90_S90x120_1_0) bitsLt_bf16_f32 : S90x120.Idx → EReal) := by
  show StableHlo.after hostOps0 (fun b => m (c, b)) (Proc.devRef .tc main_v10) = _
  after_results

theorem wblk4 (c : Dev nD) (t : Fin cfg0.N) (k : Fin 90) (q : Fin 120) :
    iblk m c 7 t (ix2 k q) = (m ((c : Thread nD τ).loc main_arg7)) (ix2 q k) := by
  show V m c main_v10 (((cfg0.win 7).blk t).view.emb (ix2 k q)) = _
  have he : ((cfg0.win 7).blk t).view.emb (ix2 k q) = ix2 k q := by
    obtain ⟨e0, e1⟩ := idx7 t
    funext a; apply Fin.ext
    match a with
    | ⟨0, _⟩ => show win0_7.index t (0 : Fin 2) * 90 + 1 * k.val = k.val; omega
    | ⟨1, _⟩ => show win0_7.index t (1 : Fin 2) * 120 + 1 * q.val = q.val; omega
  rw [he, V_w4, truncf_apply, transpose_apply2]

/-- Layer 4's bias as the region finds it: the vector laid out as one row. -/
theorem V_b4 (c : Dev nD) : (V m c main_v11 : S1x120.Idx → EReal)
    = (shapeCast S1x120 ((m ((c : Thread nD τ).loc main_arg8)) : S120.Idx → EReal) shapeCasts_S120_S1x120 : S1x120.Idx → EReal) := by
  show StableHlo.after hostOps0 (fun b => m (c, b)) (Proc.devRef .tc main_v11) = _
  after_results
  rfl

theorem bblk4 (c : Dev nD) (t : Fin cfg0.N) (q : Fin 120) :
    iblk m c 8 t (ix2 0 q) = (m ((c : Thread nD τ).loc main_arg8)) (ix1 q) := by
  show V m c main_v11 (((cfg0.win 8).blk t).view.emb (ix2 0 q)) = _
  have he : ((cfg0.win 8).blk t).view.emb (ix2 (0 : Fin 1) q) = ix2 (0 : Fin 1) q := by
    obtain ⟨e0, e1⟩ := idx8 t
    funext a; apply Fin.ext
    match a with
    | ⟨0, _⟩ => show win0_8.index t (0 : Fin 2) * 1 + 1 * 0 = 0; omega
    | ⟨1, _⟩ => show win0_8.index t (1 : Fin 2) * 120 + 1 * q.val = q.val; omega
  rw [he, V_b4]
  exact RowOfFlat.apply _ _ q

/-- Layer 5's weights as the region finds them: the argument transposed (narrowing is the identity). -/
theorem V_w5 (c : Dev nD) : (V m c main_v13 : S120x90.Idx → EReal)
    = (truncf (F := Ideal) .bf16 (transpose S120x90 [1, 0] ((m ((c : Thread nD τ).loc main_arg9)) : S90x120.Idx → EReal) transposes_S90x120_S120x90_1_0) bitsLt_bf16_f32 : S120x90.Idx → EReal) := by
  show StableHlo.after hostOps0 (fun b => m (c, b)) (Proc.devRef .tc main_v13) = _
  after_results

theorem wblk5 (c : Dev nD) (t : Fin cfg0.N) (k : Fin 120) (q : Fin 90) :
    iblk m c 9 t (ix2 k q) = (m ((c : Thread nD τ).loc main_arg9)) (ix2 q k) := by
  show V m c main_v13 (((cfg0.win 9).blk t).view.emb (ix2 k q)) = _
  have he : ((cfg0.win 9).blk t).view.emb (ix2 k q) = ix2 k q := by
    obtain ⟨e0, e1⟩ := idx9 t
    funext a; apply Fin.ext
    match a with
    | ⟨0, _⟩ => show win0_9.index t (0 : Fin 2) * 120 + 1 * k.val = k.val; omega
    | ⟨1, _⟩ => show win0_9.index t (1 : Fin 2) * 90 + 1 * q.val = q.val; omega
  rw [he, V_w5, truncf_apply, transpose_apply2]

/-- Layer 5's bias as the region finds it: the vector laid out as one row. -/
theorem V_b5 (c : Dev nD) : (V m c main_v14 : S1x90.Idx → EReal)
    = (shapeCast S1x90 ((m ((c : Thread nD τ).loc main_arg10)) : S90.Idx → EReal) shapeCasts_S90_S1x90 : S1x90.Idx → EReal) := by
  show StableHlo.after hostOps0 (fun b => m (c, b)) (Proc.devRef .tc main_v14) = _
  after_results
  rfl

theorem bblk5 (c : Dev nD) (t : Fin cfg0.N) (q : Fin 90) :
    iblk m c 10 t (ix2 0 q) = (m ((c : Thread nD τ).loc main_arg10)) (ix1 q) := by
  show V m c main_v14 (((cfg0.win 10).blk t).view.emb (ix2 0 q)) = _
  have he : ((cfg0.win 10).blk t).view.emb (ix2 (0 : Fin 1) q) = ix2 (0 : Fin 1) q := by
    obtain ⟨e0, e1⟩ := idx10 t
    funext a; apply Fin.ext
    match a with
    | ⟨0, _⟩ => show win0_10.index t (0 : Fin 2) * 1 + 1 * 0 = 0; omega
    | ⟨1, _⟩ => show win0_10.index t (1 : Fin 2) * 90 + 1 * q.val = q.val; omega
  rw [he, V_b5]
  exact RowOfFlat.apply _ _ q

/-- Layer 6's weights as the region finds them: the argument transposed (narrowing is the identity). -/
theorem V_w6 (c : Dev nD) : (V m c main_v16 : S90x60.Idx → EReal)
    = (truncf (F := Ideal) .bf16 (transpose S90x60 [1, 0] ((m ((c : Thread nD τ).loc main_arg11)) : S60x90.Idx → EReal) transposes_S60x90_S90x60_1_0) bitsLt_bf16_f32 : S90x60.Idx → EReal) := by
  show StableHlo.after hostOps0 (fun b => m (c, b)) (Proc.devRef .tc main_v16) = _
  after_results

theorem wblk6 (c : Dev nD) (t : Fin cfg0.N) (k : Fin 90) (q : Fin 60) :
    iblk m c 11 t (ix2 k q) = (m ((c : Thread nD τ).loc main_arg11)) (ix2 q k) := by
  show V m c main_v16 (((cfg0.win 11).blk t).view.emb (ix2 k q)) = _
  have he : ((cfg0.win 11).blk t).view.emb (ix2 k q) = ix2 k q := by
    obtain ⟨e0, e1⟩ := idx11 t
    funext a; apply Fin.ext
    match a with
    | ⟨0, _⟩ => show win0_11.index t (0 : Fin 2) * 90 + 1 * k.val = k.val; omega
    | ⟨1, _⟩ => show win0_11.index t (1 : Fin 2) * 60 + 1 * q.val = q.val; omega
  rw [he, V_w6, truncf_apply, transpose_apply2]

/-- Layer 6's bias as the region finds it: the vector laid out as one row. -/
theorem V_b6 (c : Dev nD) : (V m c main_v17 : S1x60.Idx → EReal)
    = (shapeCast S1x60 ((m ((c : Thread nD τ).loc main_arg12)) : S60.Idx → EReal) shapeCasts_S60_S1x60 : S1x60.Idx → EReal) := by
  show StableHlo.after hostOps0 (fun b => m (c, b)) (Proc.devRef .tc main_v17) = _
  after_results
  rfl

theorem bblk6 (c : Dev nD) (t : Fin cfg0.N) (q : Fin 60) :
    iblk m c 12 t (ix2 0 q) = (m ((c : Thread nD τ).loc main_arg12)) (ix1 q) := by
  show V m c main_v17 (((cfg0.win 12).blk t).view.emb (ix2 0 q)) = _
  have he : ((cfg0.win 12).blk t).view.emb (ix2 (0 : Fin 1) q) = ix2 (0 : Fin 1) q := by
    obtain ⟨e0, e1⟩ := idx12 t
    funext a; apply Fin.ext
    match a with
    | ⟨0, _⟩ => show win0_12.index t (0 : Fin 2) * 1 + 1 * 0 = 0; omega
    | ⟨1, _⟩ => show win0_12.index t (1 : Fin 2) * 60 + 1 * q.val = q.val; omega
  rw [he, V_b6]
  exact RowOfFlat.apply _ _ q

/-- Layer 7's weights as the region finds them: the argument transposed (narrowing is the identity). -/
theorem V_w7 (c : Dev nD) : (V m c main_v19 : S60x30.Idx → EReal)
    = (truncf (F := Ideal) .bf16 (transpose S60x30 [1, 0] ((m ((c : Thread nD τ).loc main_arg13)) : S30x60.Idx → EReal) transposes_S30x60_S60x30_1_0) bitsLt_bf16_f32 : S60x30.Idx → EReal) := by
  show StableHlo.after hostOps0 (fun b => m (c, b)) (Proc.devRef .tc main_v19) = _
  after_results

theorem wblk7 (c : Dev nD) (t : Fin cfg0.N) (k : Fin 60) (q : Fin 30) :
    iblk m c 13 t (ix2 k q) = (m ((c : Thread nD τ).loc main_arg13)) (ix2 q k) := by
  show V m c main_v19 (((cfg0.win 13).blk t).view.emb (ix2 k q)) = _
  have he : ((cfg0.win 13).blk t).view.emb (ix2 k q) = ix2 k q := by
    obtain ⟨e0, e1⟩ := idx13 t
    funext a; apply Fin.ext
    match a with
    | ⟨0, _⟩ => show win0_13.index t (0 : Fin 2) * 60 + 1 * k.val = k.val; omega
    | ⟨1, _⟩ => show win0_13.index t (1 : Fin 2) * 30 + 1 * q.val = q.val; omega
  rw [he, V_w7, truncf_apply, transpose_apply2]

/-- Layer 7's bias as the region finds it: the vector laid out as one row. -/
theorem V_b7 (c : Dev nD) : (V m c main_v20 : S1x30.Idx → EReal)
    = (shapeCast S1x30 ((m ((c : Thread nD τ).loc main_arg14)) : S30.Idx → EReal) shapeCasts_S30_S1x30 : S1x30.Idx → EReal) := by
  show StableHlo.after hostOps0 (fun b => m (c, b)) (Proc.devRef .tc main_v20) = _
  after_results
  rfl

theorem bblk7 (c : Dev nD) (t : Fin cfg0.N) (q : Fin 30) :
    iblk m c 14 t (ix2 0 q) = (m ((c : Thread nD τ).loc main_arg14)) (ix1 q) := by
  show V m c main_v20 (((cfg0.win 14).blk t).view.emb (ix2 0 q)) = _
  have he : ((cfg0.win 14).blk t).view.emb (ix2 (0 : Fin 1) q) = ix2 (0 : Fin 1) q := by
    obtain ⟨e0, e1⟩ := idx14 t
    funext a; apply Fin.ext
    match a with
    | ⟨0, _⟩ => show win0_14.index t (0 : Fin 2) * 1 + 1 * 0 = 0; omega
    | ⟨1, _⟩ => show win0_14.index t (1 : Fin 2) * 30 + 1 * q.val = q.val; omega
  rw [he, V_b7]
  exact RowOfFlat.apply _ _ q

/-- Layer 8's weights as the region finds them: the argument transposed (narrowing is the identity). -/
theorem V_w8 (c : Dev nD) : (V m c main_v22 : S30x15.Idx → EReal)
    = (truncf (F := Ideal) .bf16 (transpose S30x15 [1, 0] ((m ((c : Thread nD τ).loc main_arg15)) : S15x30.Idx → EReal) transposes_S15x30_S30x15_1_0) bitsLt_bf16_f32 : S30x15.Idx → EReal) := by
  show StableHlo.after hostOps0 (fun b => m (c, b)) (Proc.devRef .tc main_v22) = _
  after_results

theorem wblk8 (c : Dev nD) (t : Fin cfg0.N) (k : Fin 30) (q : Fin 15) :
    iblk m c 15 t (ix2 k q) = (m ((c : Thread nD τ).loc main_arg15)) (ix2 q k) := by
  show V m c main_v22 (((cfg0.win 15).blk t).view.emb (ix2 k q)) = _
  have he : ((cfg0.win 15).blk t).view.emb (ix2 k q) = ix2 k q := by
    obtain ⟨e0, e1⟩ := idx15 t
    funext a; apply Fin.ext
    match a with
    | ⟨0, _⟩ => show win0_15.index t (0 : Fin 2) * 30 + 1 * k.val = k.val; omega
    | ⟨1, _⟩ => show win0_15.index t (1 : Fin 2) * 15 + 1 * q.val = q.val; omega
  rw [he, V_w8, truncf_apply, transpose_apply2]

/-- Layer 8's bias as the region finds it: the vector laid out as one row. -/
theorem V_b8 (c : Dev nD) : (V m c main_v23 : S1x15.Idx → EReal)
    = (shapeCast S1x15 ((m ((c : Thread nD τ).loc main_arg16)) : S15.Idx → EReal) shapeCasts_S15_S1x15 : S1x15.Idx → EReal) := by
  show StableHlo.after hostOps0 (fun b => m (c, b)) (Proc.devRef .tc main_v23) = _
  after_results
  rfl

theorem bblk8 (c : Dev nD) (t : Fin cfg0.N) (q : Fin 15) :
    iblk m c 16 t (ix2 0 q) = (m ((c : Thread nD τ).loc main_arg16)) (ix1 q) := by
  show V m c main_v23 (((cfg0.win 16).blk t).view.emb (ix2 0 q)) = _
  have he : ((cfg0.win 16).blk t).view.emb (ix2 (0 : Fin 1) q) = ix2 (0 : Fin 1) q := by
    obtain ⟨e0, e1⟩ := idx16 t
    funext a; apply Fin.ext
    match a with
    | ⟨0, _⟩ => show win0_16.index t (0 : Fin 2) * 1 + 1 * 0 = 0; omega
    | ⟨1, _⟩ => show win0_16.index t (1 : Fin 2) * 15 + 1 * q.val = q.val; omega
  rw [he, V_b8]
  exact RowOfFlat.apply _ _ q

/-- Layer 9's weights as the region finds them: the argument transposed (narrowing is the identity). -/
theorem V_w9 (c : Dev nD) : (V m c main_v25 : S15x10.Idx → EReal)
    = (truncf (F := Ideal) .bf16 (transpose S15x10 [1, 0] ((m ((c : Thread nD τ).loc main_arg17)) : S10x15.Idx → EReal) transposes_S10x15_S15x10_1_0) bitsLt_bf16_f32 : S15x10.Idx → EReal) := by
  show StableHlo.after hostOps0 (fun b => m (c, b)) (Proc.devRef .tc main_v25) = _
  after_results

theorem wblk9 (c : Dev nD) (t : Fin cfg0.N) (k : Fin 15) (q : Fin 10) :
    iblk m c 17 t (ix2 k q) = (m ((c : Thread nD τ).loc main_arg17)) (ix2 q k) := by
  show V m c main_v25 (((cfg0.win 17).blk t).view.emb (ix2 k q)) = _
  have he : ((cfg0.win 17).blk t).view.emb (ix2 k q) = ix2 k q := by
    obtain ⟨e0, e1⟩ := idx17 t
    funext a; apply Fin.ext
    match a with
    | ⟨0, _⟩ => show win0_17.index t (0 : Fin 2) * 15 + 1 * k.val = k.val; omega
    | ⟨1, _⟩ => show win0_17.index t (1 : Fin 2) * 10 + 1 * q.val = q.val; omega
  rw [he, V_w9, truncf_apply, transpose_apply2]

/-- Layer 9's bias as the region finds it: the vector laid out as one row. -/
theorem V_b9 (c : Dev nD) : (V m c main_v26 : S1x10.Idx → EReal)
    = (shapeCast S1x10 ((m ((c : Thread nD τ).loc main_arg18)) : S10.Idx → EReal) shapeCasts_S10_S1x10 : S1x10.Idx → EReal) := by
  show StableHlo.after hostOps0 (fun b => m (c, b)) (Proc.devRef .tc main_v26) = _
  after_results
  rfl

theorem bblk9 (c : Dev nD) (t : Fin cfg0.N) (q : Fin 10) :
    iblk m c 18 t (ix2 0 q) = (m ((c : Thread nD τ).loc main_arg18)) (ix1 q) := by
  show V m c main_v26 (((cfg0.win 18).blk t).view.emb (ix2 0 q)) = _
  have he : ((cfg0.win 18).blk t).view.emb (ix2 (0 : Fin 1) q) = ix2 (0 : Fin 1) q := by
    obtain ⟨e0, e1⟩ := idx18 t
    funext a; apply Fin.ext
    match a with
    | ⟨0, _⟩ => show win0_18.index t (0 : Fin 2) * 1 + 1 * 0 = 0; omega
    | ⟨1, _⟩ => show win0_18.index t (1 : Fin 2) * 10 + 1 * q.val = q.val; omega
  rw [he, V_b9]
  exact RowOfFlat.apply _ _ q

/-- Layer 10's weights as the region finds them: the argument transposed (narrowing is the identity). -/
theorem V_w10 (c : Dev nD) : (V m c main_v28 : S10x5.Idx → EReal)
    = (truncf (F := Ideal) .bf16 (transpose S10x5 [1, 0] ((m ((c : Thread nD τ).loc main_arg19)) : S5x10.Idx → EReal) transposes_S5x10_S10x5_1_0) bitsLt_bf16_f32 : S10x5.Idx → EReal) := by
  show StableHlo.after hostOps0 (fun b => m (c, b)) (Proc.devRef .tc main_v28) = _
  after_results

theorem wblk10 (c : Dev nD) (t : Fin cfg0.N) (k : Fin 10) (q : Fin 5) :
    iblk m c 19 t (ix2 k q) = (m ((c : Thread nD τ).loc main_arg19)) (ix2 q k) := by
  show V m c main_v28 (((cfg0.win 19).blk t).view.emb (ix2 k q)) = _
  have he : ((cfg0.win 19).blk t).view.emb (ix2 k q) = ix2 k q := by
    obtain ⟨e0, e1⟩ := idx19 t
    funext a; apply Fin.ext
    match a with
    | ⟨0, _⟩ => show win0_19.index t (0 : Fin 2) * 10 + 1 * k.val = k.val; omega
    | ⟨1, _⟩ => show win0_19.index t (1 : Fin 2) * 5 + 1 * q.val = q.val; omega
  rw [he, V_w10, truncf_apply, transpose_apply2]

/-- Layer 10's bias as the region finds it: the vector laid out as one row. -/
theorem V_b10 (c : Dev nD) : (V m c main_v29 : S1x5.Idx → EReal)
    = (shapeCast S1x5 ((m ((c : Thread nD τ).loc main_arg20)) : S5.Idx → EReal) shapeCasts_S5_S1x5 : S1x5.Idx → EReal) := by
  show StableHlo.after hostOps0 (fun b => m (c, b)) (Proc.devRef .tc main_v29) = _
  after_results
  rfl

theorem bblk10 (c : Dev nD) (t : Fin cfg0.N) (q : Fin 5) :
    iblk m c 20 t (ix2 0 q) = (m ((c : Thread nD τ).loc main_arg20)) (ix1 q) := by
  show V m c main_v29 (((cfg0.win 20).blk t).view.emb (ix2 0 q)) = _
  have he : ((cfg0.win 20).blk t).view.emb (ix2 (0 : Fin 1) q) = ix2 (0 : Fin 1) q := by
    obtain ⟨e0, e1⟩ := idx20 t
    funext a; apply Fin.ext
    match a with
    | ⟨0, _⟩ => show win0_20.index t (0 : Fin 2) * 1 + 1 * 0 = 0; omega
    | ⟨1, _⟩ => show win0_20.index t (1 : Fin 2) * 5 + 1 * q.val = q.val; omega
  rw [he, V_b10]
  exact RowOfFlat.apply _ _ q

/-- The last layer's weight row as the region finds it: the argument itself. -/
theorem V_w11 (c : Dev nD) : (V m c main_v30 : S1x5.Idx → EReal)
    = (truncf (F := Ideal) .bf16 ((m ((c : Thread nD τ).loc main_arg21)) : S1x5.Idx → EReal) bitsLt_bf16_f32 : S1x5.Idx → EReal) := by
  show StableHlo.after hostOps0 (fun b => m (c, b)) (Proc.devRef .tc main_v30) = _
  after_results

theorem wblk11 (c : Dev nD) (t : Fin cfg0.N) (k : Fin 5) (q : Fin 1) :
    iblk m c 21 t (ix2 q k) = (m ((c : Thread nD τ).loc main_arg21)) (ix2 q k) := by
  show V m c main_v30 (((cfg0.win 21).blk t).view.emb (ix2 q k)) = _
  have he : ((cfg0.win 21).blk t).view.emb (ix2 q k) = ix2 q k := by
    obtain ⟨e0, e1⟩ := idx21 t
    funext a; apply Fin.ext
    match a with
    | ⟨0, _⟩ => show win0_21.index t (0 : Fin 2) * 1 + 1 * q.val = q.val; omega
    | ⟨1, _⟩ => show win0_21.index t (1 : Fin 2) * 5 + 1 * k.val = k.val; omega
  rw [he, V_w11, truncf_apply]

/-- Layer 11's bias as the region finds it: the vector laid out as one row. -/
theorem V_b11 (c : Dev nD) : (V m c main_v31 : S1x1.Idx → EReal)
    = (shapeCast S1x1 ((m ((c : Thread nD τ).loc main_arg22)) : S1.Idx → EReal) shapeCasts_S1_S1x1 : S1x1.Idx → EReal) := by
  show StableHlo.after hostOps0 (fun b => m (c, b)) (Proc.devRef .tc main_v31) = _
  after_results
  rfl

theorem bblk11 (c : Dev nD) (t : Fin cfg0.N) (q : Fin 1) :
    iblk m c 22 t (ix2 0 q) = (m ((c : Thread nD τ).loc main_arg22)) (ix1 q) := by
  show V m c main_v31 (((cfg0.win 22).blk t).view.emb (ix2 0 q)) = _
  have he : ((cfg0.win 22).blk t).view.emb (ix2 (0 : Fin 1) q) = ix2 (0 : Fin 1) q := by
    obtain ⟨e0, e1⟩ := idx22 t
    funext a; apply Fin.ext
    match a with
    | ⟨0, _⟩ => show win0_22.index t (0 : Fin 2) * 1 + 1 * 0 = 0; omega
    | ⟨1, _⟩ => show win0_22.index t (1 : Fin 2) * 1 + 1 * q.val = q.val; omega
  rw [he, V_b11]
  exact RowOfFlat.apply _ _ q

/-! ## The input's tiles -/

theorem xblk (c : Dev nD) (t : Fin cfg0.N) (r : Fin 16384) (k : Fin 15) :
    iblk m c 0 t (ix2 r k)
      = (m ((c : Thread nD τ).loc main_arg0)) (ix2 (⟨16384 * t.val + r.val, Body.row_lt (tlt t) r.isLt⟩ : Fin 524288) k) := by
  show V m c main_arg0 (((cfg0.win 0).blk t).view.emb (ix2 r k)) = _
  have he : ((cfg0.win 0).blk t).view.emb (ix2 r k)
      = ix2 (⟨16384 * t.val + r.val, Body.row_lt (tlt t) r.isLt⟩ : Fin 524288) k := by
    obtain ⟨e0, e1⟩ := idx0 t
    funext a; apply Fin.ext
    match a with
    | ⟨0, _⟩ => show win0_0.index t (0 : Fin 2) * 16384 + 1 * r.val = 16384 * t.val + r.val; omega
    | ⟨1, _⟩ => show win0_0.index t (1 : Fin 2) * 15 + 1 * k.val = k.val; omega
  rw [he, V_main_arg0]

end Cert.KernelIdeal.Blocks

end
-- ==== Proof.Result.lean ====
/-
  The kernel's result as one function of the arguments.

  Point `t` of the grid writes back the block `[1, 16384]` at columns `16384 · t …` of the result row `[1, 524288]`,
  and that block's entry `(0, r)` is the network's value on row `16384 · t + r` of the input.  The 32 blocks tile the
  row, so after the region the row holds at `(0, j)` the network's value on row `j`.  The host then reads the row as a
  column `[524288, 1]`, the same numbers in the same order: entry `(p, 0)` is the network's value on row `p`.
-/
import proofs.«116243_j9706626089657_2_alg».proof.Proof.Blocks

set_option maxRecDepth 16384

noncomputable section

open Idealize.ShloMosaic Idealize.ShloMosaic.TcCoe Idealize.ShloMosaic.ValueIdx Idealize.SL.Sem DenseRows
open Idealize.ShloMosaic.StableHlo Idealize.ShloMosaic.Pipeline

namespace Cert.KernelIdeal.Result

open Cert.KernelIdeal Cert.KernelIdeal.Gen Cert.KernelIdeal.Blocks

variable (m : (ℓ : Loc nD τ sig) → Buf (Elt Ideal) ℓ) (ρ : Dev nD → PrngReg)

/-- The network's parameters as core `c`'s argument arrays hold them. -/
def P (c : Dev nD) : Funnel.Params :=
  Funnel.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- The result row: at `(0, j)` the network's value on row `j` of the input. -/
def row (c : Dev nD) : S1x524288.Idx → EReal := fun j => Funnel.net (P m c) (m ((c : Thread nD τ).loc main_arg0)) (ix2 (j 1) 0)

/-- The result column: at `(p, 0)` the network's value on row `p` of the input. -/
def col (c : Dev nD) : S524288x1.Idx → EReal := fun i => Funnel.net (P m c) (m ((c : Thread nD τ).loc main_arg0)) (ix2 (i 0) 0)

theorem hz : (![0, 0] : Fin 2 → Nat) = fun _ => 0 := funext fun a => by fin_cases a <;> rfl

/-- What the body stores at point `t`, entry by entry, is the result row read through the point's block. -/
theorem stored_apply (c : Dev nD) (t : Fin cfg0.N) (y : S1x16384.Idx) :
    k0_pay1 (F := Ideal) (k0_pay5 (k0_pay4 (k0_pay2 (iblk m c 0 t) (iblk m c 1 t) (iblk m c 2 t) (iblk m c 3 t) (iblk m c 4 t) (iblk m c 5 t) (iblk m c 6 t)) (k0_pay3 (iblk m c 7 t)) (iblk m c 8 t) (iblk m c 9 t) (iblk m c 10 t) (iblk m c 11 t) (iblk m c 12 t) (iblk m c 13 t) (iblk m c 14 t)) (iblk m c 15 t) (iblk m c 16 t) (iblk m c 17 t) (iblk m c 18 t) (iblk m c 19 t) (iblk m c 20 t) (iblk m c 21 t)) (k0_pay6 (iblk m c 22 t)) y
      = row m c (((cfg0.win 23).blk t).view.emb y) := by
  obtain ⟨u, r, rfl⟩ : ∃ (u : Fin 1) (r : Fin 16384), y = ix2 u r := ⟨y 0, y 1, eq_ix2 y⟩
  obtain rfl : u = 0 := Subsingleton.elim _ _
  have he : ((cfg0.win 23).blk t).view.emb (ix2 (0 : Fin 1) r)
      = ix2 (0 : Fin 1) (⟨16384 * t.val + r.val, Body.row_lt (tlt t) r.isLt⟩ : Fin 524288) := by
    obtain ⟨e0, e1⟩ := idx23 t
    funext a; apply Fin.ext
    match a with
    | ⟨0, _⟩ => show win0_23.index t (0 : Fin 2) * 1 + 1 * 0 = 0; omega
    | ⟨1, _⟩ => show win0_23.index t (1 : Fin 2) * 16384 + 1 * r.val = 16384 * t.val + r.val; omega
  rw [he]
  exact Body.block_value (P m c) (m ((c : Thread nD τ).loc main_arg0)) t.val (tlt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (xblk m c t) (wblk1 m c t) (bblk1 m c t) (wblk2 m c t) (bblk2 m c t) (wblk3 m c t) (bblk3 m c t) (wblk4 m c t) (bblk4 m c t) (wblk5 m c t) (bblk5 m c t) (wblk6 m c t) (bblk6 m c t) (wblk7 m c t) (bblk7 m c t) (wblk8 m c t) (bblk8 m c t) (wblk9 m c t) (bblk9 m c t) (wblk10 m c t) (bblk10 m c t) (wblk11 m c t) (bblk11 m c t) r

/-- WHAT POINT `t` WRITES BACK is its block of the result row. -/
theorem flushed_eq (c : Dev nD) (t : Fin cfg0.N) :
    (dats m 0 c).flushed 23 t = ((cfg0.win 23).blk t).view.read (Elt Ideal) (row m c) := by
  show (cfg0.win 23).cut (grid0.coords t) ((dats m 0 c).after 23 t) = _
  rw [after0_23]
  unfold out0_23
  rw [View.canon_unit_zero hz]
  simp only [View.ld_unit_zero (S := S16384x15) hz, View.ld_unit_zero (S := S15x30) hz, View.ld_unit_zero (S := S1x30) hz, View.ld_unit_zero (S := S30x60) hz, View.ld_unit_zero (S := S1x60) hz, View.ld_unit_zero (S := S60x90) hz, View.ld_unit_zero (S := S1x90) hz, View.ld_unit_zero (S := S90x120) hz, View.ld_unit_zero (S := S1x120) hz, View.ld_unit_zero (S := S120x90) hz, View.ld_unit_zero (S := S90x60) hz, View.ld_unit_zero (S := S60x30) hz, View.ld_unit_zero (S := S30x15) hz, View.ld_unit_zero (S := S1x15) hz, View.ld_unit_zero (S := S15x10) hz, View.ld_unit_zero (S := S1x10) hz, View.ld_unit_zero (S := S10x5) hz, View.ld_unit_zero (S := S1x5) hz, View.ld_unit_zero (S := S1x1) hz]
  funext j
  exact stored_apply m c t j

/-- An index of the row is in point `t`'s block iff each coordinate is in the block's range on its axis. -/
theorem mem_blk (t : Fin cfg0.N) (i : S1x524288.Idx) :
    i ∈ ((cfg0.win 23).blk t).view.set ↔ ∀ a : Fin 2, win0_23.index t a * S1x16384.size a ≤ (i a).val ∧ (i a).val < win0_23.index t a * S1x16384.size a + S1x16384.size a := by
  show i ∈ ((View.whole main_v32).slice (win0_23.rect t)).set ↔ _
  rw [View.set_slice_whole, Rect.mem_set_unit]
  exact Iff.rfl

/-- The 32 blocks tile the row: column `j` is in the block of point `j / 16384`. -/
theorem cover (i : S1x524288.Idx) :
    ∃ t : Fin cfg0.N, (cfg0.win 23).flush t = true ∧ i ∈ ((cfg0.win 23).blk t).view.set := by
  have hi0 : (i 0).val < 1 := (i 0).isLt
  have hi1 : (i 1).val < 524288 := (i 1).isLt
  have hN : (i 1).val / 16384 < cfg0.N := by rw [show cfg0.N = 32 from N_0]; omega
  refine ⟨⟨(i 1).val / 16384, hN⟩, flush0_23 _, ?_⟩
  rw [mem_blk]
  obtain ⟨e0, e1⟩ := idx23 ⟨(i 1).val / 16384, hN⟩
  intro a
  match a with
  | ⟨0, _⟩ => show win0_23.index ⟨(i 1).val / 16384, hN⟩ (0 : Fin 2) * 1 ≤ (i 0).val ∧ (i 0).val < win0_23.index ⟨(i 1).val / 16384, hN⟩ (0 : Fin 2) * 1 + 1; omega
  | ⟨1, _⟩ =>
    show win0_23.index ⟨(i 1).val / 16384, hN⟩ (1 : Fin 2) * 16384 ≤ (i 1).val ∧ (i 1).val < win0_23.index ⟨(i 1).val / 16384, hN⟩ (1 : Fin 2) * 16384 + 16384
    have e1' : win0_23.index ⟨(i 1).val / 16384, hN⟩ (1 : Fin 2) = (i 1).val / 16384 := e1
    omega

/-- THE ROW after the region. -/
theorem final (c : Dev nD) : (dats m 0 c).arrAt 23 cfg0.N = row m c :=
  (dats m 0 c).arrAt_eq_of_cover 23 (row m c) (fun t _ => flushed_eq m c t) cover

end Cert.KernelIdeal.Result

end
-- ==== Proof.Run.lean ====
/-
  The kernel's run, read: the result and the arguments after every execution.

  After the region the host reads the result row `[1, 524288]` as a column `[524288, 1]`; both hold the same numbers
  in row-major order, so the column's entry `(p, 0)` is the row's entry `(0, p)`.
-/
import proofs.«116243_j9706626089657_2_alg».proof.Proof.Result

set_option maxRecDepth 16384

noncomputable section

open Idealize.ShloMosaic Idealize.ShloMosaic.TcCoe Idealize.ShloMosaic.ValueIdx Idealize.SL.Sem DenseRows
open Idealize.ShloMosaic.StableHlo Idealize.ShloMosaic.Pipeline

namespace Cert.KernelIdeal.Result

open Cert.KernelIdeal Cert.KernelIdeal.Gen Cert.KernelIdeal.Blocks

variable (m : (ℓ : Loc nD τ sig) → Buf (Elt Ideal) ℓ) (ρ : Dev nD → PrngReg)

/-- The row read as a column. -/
theorem col_of_row (c : Dev nD) :
    shapeCast S524288x1 (row m c) shapeCasts_S1x524288_S524288x1 = col m c := by
  funext i
  obtain ⟨p, u, rfl⟩ : ∃ (p : Fin 524288) (u : Fin 1), i = ix2 p u := ⟨i 0, i 1, eq_ix2 i⟩
  refine (shapeCast_apply (row m c) shapeCasts_S1x524288_S524288x1 (ix2 p u) (ix2 (0 : Fin 1) p) ?_).trans rfl
  have hu : u.val = 0 := by omega
  rw [Shape.rowMajor_val_two, Shape.rowMajor_val_two]
  show 0 * 524288 + p.val = p.val * 1 + u.val
  omega

/-- What the host leaves in the result buffer after the region. -/
theorem tail_eq (c : Dev nD) :
    Pipeline.afterTail₀ cfgs (dats m) 0 (V0 m) [hostOps1] c main_v33 = col m c := by
  unfold Pipeline.afterTail₀
  show StableHlo.after hostOps1 _ (Proc.devRef .tc main_v33) = _
  after_results
  rw [(Pipeline.withArrays_arr spec0 launch0.win.arr_inj c _ _ 23).trans (final m c)]
  exact col_of_row m c

/-- THE RUN: every weakly fair execution terminates with the result buffer at the column of the network's values and
    every argument as launched. -/
theorem run : θ_run defs (onTc (τ := τ) (main (F := Ideal))) ⟨m, fun _ => 0, ρ⟩ fun r => ∀ c : Dev nD,
      r.2.mem ((c.tc : Thread nD τ).loc main_v33) = col m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c => ⟨((h c).2 main_v33 (Pipeline.mem_restRefs_of main_v33 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c)⟩)
    (run_main m ρ)

end Cert.KernelIdeal.Result

end
-- ==== Proof.RefValue.lean ====
/-
  What the reference computes, over the extended reals.

  Each of the first ten layers multiplies the running matrix (524288 rows) by the transpose of a weight matrix
  stored `[N, K]`, adds the bias vector to every row and takes the maximum with zero; the last layer does the
  same without the maximum and then takes one over one plus the exponential of the negation, which is the
  logistic function.  Read with `w k q = W (q, k)` these are the network's layers, so the result's entry `(p, 0)`
  is the network's value on row `p` of the input (`result_apply`).
-/
import proofs.«116243_j9706626089657_2_alg».proof.Proof.Gen.ReferenceIdeal.Read
import proofs.«116243_j9706626089657_2_alg».proof.Proof.Funnel

noncomputable section

open scoped BigOperators
open Idealize.ShloMosaic Idealize.ShloMosaic.ValueIdx DenseRows

namespace Cert.ReferenceIdeal.RefValue

open Cert.ReferenceIdeal Cert.ReferenceIdeal.Gen Cert.ReferenceIdeal.Read

/-! ## The eleven contractions are plain row-by-column products -/

theorem plain1 : PlainMatmul.IsPlain dot_S524288x15_S15x30_S524288x30_1_0_0_1_n_n := ⟨rfl, rfl, rfl, rfl, rfl, rfl⟩
theorem plain2 : PlainMatmul.IsPlain dot_S524288x30_S30x60_S524288x60_1_0_0_1_n_n := ⟨rfl, rfl, rfl, rfl, rfl, rfl⟩
theorem plain3 : PlainMatmul.IsPlain dot_S524288x60_S60x90_S524288x90_1_0_0_1_n_n := ⟨rfl, rfl, rfl, rfl, rfl, rfl⟩
theorem plain4 : PlainMatmul.IsPlain dot_S524288x90_S90x120_S524288x120_1_0_0_1_n_n := ⟨rfl, rfl, rfl, rfl, rfl, rfl⟩
theorem plain5 : PlainMatmul.IsPlain dot_S524288x120_S120x90_S524288x90_1_0_0_1_n_n := ⟨rfl, rfl, rfl, rfl, rfl, rfl⟩
theorem plain6 : PlainMatmul.IsPlain dot_S524288x90_S90x60_S524288x60_1_0_0_1_n_n := ⟨rfl, rfl, rfl, rfl, rfl, rfl⟩
theorem plain7 : PlainMatmul.IsPlain dot_S524288x60_S60x30_S524288x30_1_0_0_1_n_n := ⟨rfl, rfl, rfl, rfl, rfl, rfl⟩
theorem plain8 : PlainMatmul.IsPlain dot_S524288x30_S30x15_S524288x15_1_0_0_1_n_n := ⟨rfl, rfl, rfl, rfl, rfl, rfl⟩
theorem plain9 : PlainMatmul.IsPlain dot_S524288x15_S15x10_S524288x10_1_0_0_1_n_n := ⟨rfl, rfl, rfl, rfl, rfl, rfl⟩
theorem plain10 : PlainMatmul.IsPlain dot_S524288x10_S10x5_S524288x5_1_0_0_1_n_n := ⟨rfl, rfl, rfl, rfl, rfl, rfl⟩
theorem plain11 : PlainMatmul.IsPlain dot_S524288x5_S5x1_S524288x1_1_0_0_1_n_n := ⟨rfl, rfl, rfl, rfl, rfl, rfl⟩

/-! ## The layers, one at a time -/

/-- Layer 1: 15 features to 30, clamped at zero. -/
theorem layer1 (a0 : (⟨S524288x15, .f32⟩ : BufTy).Contents (Elt Ideal)) (a1 : (⟨S30x15, .f32⟩ : BufTy).Contents (Elt Ideal)) (a2 : (⟨S30, .f32⟩ : BufTy).Contents (Elt Ideal)) :
    (val_main_v5 (F := Ideal) a0 a1 a2 : S524288x30.Idx → EReal)
      = relu a0 (fun k q => a1 (ix2 q k)) (fun q => a2 (ix1 q)) := by
  unfold val_main_v5 val_main_v4 val_main_v3 val_main_v2 val_main_v1 val_main_v0 val_main_call0_v0 val_main_call0_cst
  exact host_relu plain1 _ _ _ _ _ _ _

/-- Layer 2: 30 features to 60, clamped at zero. -/
theorem layer2 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) :
    (val_main_v11 (F := Ideal) a0 a1 a2 a3 a4 : S524288x60.Idx → EReal)
      = relu (val_main_v5 (F := Ideal) a0 a1 a2) (fun k q => a3 (ix2 q k)) (fun q => a4 (ix1 q)) := by
  unfold val_main_v11 val_main_v10 val_main_v9 val_main_v8 val_main_v7 val_main_v6 val_main_call1_v0 val_main_call1_cst
  exact host_relu plain2 _ _ _ _ _ _ _

/-- Layer 3: 60 features to 90, clamped at zero. -/
theorem layer3 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) :
    (val_main_v17 (F := Ideal) a0 a1 a2 a3 a4 a5 a6 : S524288x90.Idx → EReal)
      = relu (val_main_v11 (F := Ideal) a0 a1 a2 a3 a4) (fun k q => a5 (ix2 q k)) (fun q => a6 (ix1 q)) := by
  unfold val_main_v17 val_main_v16 val_main_v15 val_main_v14 val_main_v13 val_main_v12 val_main_call2_v0 val_main_call2_cst
  exact host_relu plain3 _ _ _ _ _ _ _

/-- Layer 4: 90 features to 120, clamped at zero. -/
theorem layer4 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) :
    (val_main_v23 (F := Ideal) a0 a1 a2 a3 a4 a5 a6 a7 a8 : S524288x120.Idx → EReal)
      = relu (val_main_v17 (F := Ideal) a0 a1 a2 a3 a4 a5 a6) (fun k q => a7 (ix2 q k)) (fun q => a8 (ix1 q)) := by
  unfold val_main_v23 val_main_v22 val_main_v21 val_main_v20 val_main_v19 val_main_v18 val_main_call3_v0 val_main_call3_cst
  exact host_relu plain4 _ _ _ _ _ _ _

/-- Layer 5: 120 features to 90, clamped at zero. -/
theorem layer5 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) :
    (val_main_v29 (F := Ideal) a0 a1 a2 a3 a4 a5 a6 a7 a8 a9 a10 : S524288x90.Idx → EReal)
      = relu (val_main_v23 (F := Ideal) a0 a1 a2 a3 a4 a5 a6 a7 a8) (fun k q => a9 (ix2 q k)) (fun q => a10 (ix1 q)) := by
  unfold val_main_v29 val_main_v28 val_main_v27 val_main_v26 val_main_v25 val_main_v24 val_main_call4_v0 val_main_call4_cst
  exact host_relu plain5 _ _ _ _ _ _ _

/-- Layer 6: 90 features to 60, clamped at zero. -/
theorem layer6 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) :
    (val_main_v35 (F := Ideal) a0 a1 a2 a3 a4 a5 a6 a7 a8 a9 a10 a11 a12 : S524288x60.Idx → EReal)
      = relu (val_main_v29 (F := Ideal) a0 a1 a2 a3 a4 a5 a6 a7 a8 a9 a10) (fun k q => a11 (ix2 q k)) (fun q => a12 (ix1 q)) := by
  unfold val_main_v35 val_main_v34 val_main_v33 val_main_v32 val_main_v31 val_main_v30 val_main_call5_v0 val_main_call5_cst
  exact host_relu plain6 _ _ _ _ _ _ _

/-- Layer 7: 60 features to 30, clamped at zero. -/
theorem layer7 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) :
    (val_main_v41 (F := Ideal) a0 a1 a2 a3 a4 a5 a6 a7 a8 a9 a10 a11 a12 a13 a14 : S524288x30.Idx → EReal)
      = relu (val_main_v35 (F := Ideal) a0 a1 a2 a3 a4 a5 a6 a7 a8 a9 a10 a11 a12) (fun k q => a13 (ix2 q k)) (fun q => a14 (ix1 q)) := by
  unfold val_main_v41 val_main_v40 val_main_v39 val_main_v38 val_main_v37 val_main_v36 val_main_call6_v0 val_main_call6_cst
  exact host_relu plain7 _ _ _ _ _ _ _

/-- Layer 8: 30 features to 15, clamped at zero. -/
theorem layer8 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) (a15 : (⟨S15x30, .f32⟩ : BufTy).Contents (Elt Ideal)) (a16 : (⟨S15, .f32⟩ : BufTy).Contents (Elt Ideal)) :
    (val_main_v47 (F := Ideal) a0 a1 a2 a3 a4 a5 a6 a7 a8 a9 a10 a11 a12 a13 a14 a15 a16 : S524288x15.Idx → EReal)
      = relu (val_main_v41 (F := Ideal) a0 a1 a2 a3 a4 a5 a6 a7 a8 a9 a10 a11 a12 a13 a14) (fun k q => a15 (ix2 q k)) (fun q => a16 (ix1 q)) := by
  unfold val_main_v47 val_main_v46 val_main_v45 val_main_v44 val_main_v43 val_main_v42 val_main_call7_v0 val_main_call7_cst
  exact host_relu plain8 _ _ _ _ _ _ _

/-- Layer 9: 15 features to 10, clamped at zero. -/
theorem layer9 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) (a15 : (⟨S15x30, .f32⟩ : BufTy).Contents (Elt Ideal)) (a16 : (⟨S15, .f32⟩ : BufTy).Contents (Elt Ideal)) (a17 : (⟨S10x15, .f32⟩ : BufTy).Contents (Elt Ideal)) (a18 : (⟨S10, .f32⟩ : BufTy).Contents (Elt Ideal)) :
    (val_main_v53 (F := Ideal) a0 a1 a2 a3 a4 a5 a6 a7 a8 a9 a10 a11 a12 a13 a14 a15 a16 a17 a18 : S524288x10.Idx → EReal)
      = relu (val_main_v47 (F := Ideal) a0 a1 a2 a3 a4 a5 a6 a7 a8 a9 a10 a11 a12 a13 a14 a15 a16) (fun k q => a17 (ix2 q k)) (fun q => a18 (ix1 q)) := by
  unfold val_main_v53 val_main_v52 val_main_v51 val_main_v50 val_main_v49 val_main_v48 val_main_call8_v0 val_main_call8_cst
  exact host_relu plain9 _ _ _ _ _ _ _

/-- Layer 10: 10 features to 5, clamped at zero. -/
theorem layer10 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) (a15 : (⟨S15x30, .f32⟩ : BufTy).Contents (Elt Ideal)) (a16 : (⟨S15, .f32⟩ : BufTy).Contents (Elt Ideal)) (a17 : (⟨S10x15, .f32⟩ : BufTy).Contents (Elt Ideal)) (a18 : (⟨S10, .f32⟩ : BufTy).Contents (Elt Ideal)) (a19 : (⟨S5x10, .f32⟩ : BufTy).Contents (Elt Ideal)) (a20 : (⟨S5, .f32⟩ : BufTy).Contents (Elt Ideal)) :
    (val_main_v59 (F := Ideal) a0 a1 a2 a3 a4 a5 a6 a7 a8 a9 a10 a11 a12 a13 a14 a15 a16 a17 a18 a19 a20 : S524288x5.Idx → EReal)
      = relu (val_main_v53 (F := Ideal) a0 a1 a2 a3 a4 a5 a6 a7 a8 a9 a10 a11 a12 a13 a14 a15 a16 a17 a18) (fun k q => a19 (ix2 q k)) (fun q => a20 (ix1 q)) := by
  unfold val_main_v59 val_main_v58 val_main_v57 val_main_v56 val_main_v55 val_main_v54 val_main_call9_v0 val_main_call9_cst
  exact host_relu plain10 _ _ _ _ _ _ _

/-- The last layer: 5 features to 1, then the logistic function, at every entry. -/
theorem layer11 (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) (a15 : (⟨S15x30, .f32⟩ : BufTy).Contents (Elt Ideal)) (a16 : (⟨S15, .f32⟩ : BufTy).Contents (Elt Ideal)) (a17 : (⟨S10x15, .f32⟩ : BufTy).Contents (Elt Ideal)) (a18 : (⟨S10, .f32⟩ : BufTy).Contents (Elt Ideal)) (a19 : (⟨S5x10, .f32⟩ : BufTy).Contents (Elt Ideal)) (a20 : (⟨S5, .f32⟩ : BufTy).Contents (Elt Ideal)) (a21 : (⟨S1x5, .f32⟩ : BufTy).Contents (Elt Ideal)) (a22 : (⟨S1, .f32⟩ : BufTy).Contents (Elt Ideal)) (i : S524288x1.Idx) :
    val_main_v70 (F := Ideal) a0 a1 a2 a3 a4 a5 a6 a7 a8 a9 a10 a11 a12 a13 a14 a15 a16 a17 a18 a19 a20 a21 a22 i
      = sigmoid (val_main_v59 (F := Ideal) a0 a1 a2 a3 a4 a5 a6 a7 a8 a9 a10 a11 a12 a13 a14 a15 a16 a17 a18 a19 a20) (fun k q => a21 (ix2 q k)) (fun q => a22 (ix1 q)) i := by
  unfold val_main_v70 val_main_v69 val_main_cst_0 val_main_v68 val_main_v67 val_main_cst val_main_v66 val_main_v65
  refine (host_sigmoid_apply _ _ i).trans ?_
  unfold val_main_v64 val_main_v63 val_main_v62 val_main_v61 val_main_v60
  exact congrArg Ideal.logistic (congrFun (host_pre plain11 _ a21 a22 _ _ _) i)

/-- The ten clamped layers are the network's three stages. -/
theorem hidden_eq (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) (a15 : (⟨S15x30, .f32⟩ : BufTy).Contents (Elt Ideal)) (a16 : (⟨S15, .f32⟩ : BufTy).Contents (Elt Ideal)) (a17 : (⟨S10x15, .f32⟩ : BufTy).Contents (Elt Ideal)) (a18 : (⟨S10, .f32⟩ : BufTy).Contents (Elt Ideal)) (a19 : (⟨S5x10, .f32⟩ : BufTy).Contents (Elt Ideal)) (a20 : (⟨S5, .f32⟩ : BufTy).Contents (Elt Ideal)) (a21 : (⟨S1x5, .f32⟩ : BufTy).Contents (Elt Ideal)) (a22 : (⟨S1, .f32⟩ : BufTy).Contents (Elt Ideal)) :
    (val_main_v59 (F := Ideal) a0 a1 a2 a3 a4 a5 a6 a7 a8 a9 a10 a11 a12 a13 a14 a15 a16 a17 a18 a19 a20 : S524288x5.Idx → EReal)
      = Funnel.stageC (Funnel.ofArrays a1 a2 a3 a4 a5 a6 a7 a8 a9 a10 a11 a12 a13 a14 a15 a16 a17 a18 a19 a20 a21 a22) (Funnel.stageB (Funnel.ofArrays a1 a2 a3 a4 a5 a6 a7 a8 a9 a10 a11 a12 a13 a14 a15 a16 a17 a18 a19 a20 a21 a22) (Funnel.stageA (Funnel.ofArrays a1 a2 a3 a4 a5 a6 a7 a8 a9 a10 a11 a12 a13 a14 a15 a16 a17 a18 a19 a20 a21 a22) a0)) := by
  rw [layer10, layer9, layer8, layer7, layer6, layer5, layer4, layer3, layer2, layer1]
  rfl

/-- The reference's result at `(p, 0)` is the network's value on row `p`. -/
theorem result_apply (a0 : (⟨S524288x15, .f32⟩ : BufTy).Contents (Elt Ideal)) (a1 : (⟨S30x15, .f32⟩ : BufTy).Contents (Elt Ideal)) (a2 : (⟨S30, .f32⟩ : BufTy).Contents (Elt Ideal)) (a3 : (⟨S60x30, .f32⟩ : BufTy).Contents (Elt Ideal)) (a4 : (⟨S60, .f32⟩ : BufTy).Contents (Elt Ideal)) (a5 : (⟨S90x60, .f32⟩ : BufTy).Contents (Elt Ideal)) (a6 : (⟨S90, .f32⟩ : BufTy).Contents (Elt Ideal)) (a7 : (⟨S120x90, .f32⟩ : BufTy).Contents (Elt Ideal)) (a8 : (⟨S120, .f32⟩ : BufTy).Contents (Elt Ideal)) (a9 : (⟨S90x120, .f32⟩ : BufTy).Contents (Elt Ideal)) (a10 : (⟨S90, .f32⟩ : BufTy).Contents (Elt Ideal)) (a11 : (⟨S60x90, .f32⟩ : BufTy).Contents (Elt Ideal)) (a12 : (⟨S60, .f32⟩ : BufTy).Contents (Elt Ideal)) (a13 : (⟨S30x60, .f32⟩ : BufTy).Contents (Elt Ideal)) (a14 : (⟨S30, .f32⟩ : BufTy).Contents (Elt Ideal)) (a15 : (⟨S15x30, .f32⟩ : BufTy).Contents (Elt Ideal)) (a16 : (⟨S15, .f32⟩ : BufTy).Contents (Elt Ideal)) (a17 : (⟨S10x15, .f32⟩ : BufTy).Contents (Elt Ideal)) (a18 : (⟨S10, .f32⟩ : BufTy).Contents (Elt Ideal)) (a19 : (⟨S5x10, .f32⟩ : BufTy).Contents (Elt Ideal)) (a20 : (⟨S5, .f32⟩ : BufTy).Contents (Elt Ideal)) (a21 : (⟨S1x5, .f32⟩ : BufTy).Contents (Elt Ideal)) (a22 : (⟨S1, .f32⟩ : BufTy).Contents (Elt Ideal)) (p : Fin 524288) :
    val_main_v70 (F := Ideal) a0 a1 a2 a3 a4 a5 a6 a7 a8 a9 a10 a11 a12 a13 a14 a15 a16 a17 a18 a19 a20 a21 a22 (ix2 p 0) = Funnel.net (Funnel.ofArrays a1 a2 a3 a4 a5 a6 a7 a8 a9 a10 a11 a12 a13 a14 a15 a16 a17 a18 a19 a20 a21 a22) a0 (ix2 p 0) := by
  rw [layer11, hidden_eq a0 a1 a2 a3 a4 a5 a6 a7 a8 a9 a10 a11 a12 a13 a14 a15 a16 a17 a18 a19 a20 a21 a22]
  rfl

end Cert.ReferenceIdeal.RefValue

end
-- ==== Proof.lean ====
/-
  The kernel applies an eleven-layer funnel network (feature widths 15 → 30 → 60 → 90 → 120 → 90 → 60 → 30 → 15 → 10 → 5
  → 1; ten layers clamped at zero, the last followed by the logistic function) to each of 524288 rows, a tile of
  16384 rows per grid point; the reference applies the same layers to the whole matrix on the host.

  Over the extended reals both compute, for every row `p`, the same term of row `p` of the input and of the
  weights: a layer's entry is `∑ k, h (p, k) * W (q, k) + b q` on both sides — the kernel's host code transposes
  each weight matrix before the launch and the kernel multiplies by the transposed matrix, the reference multiplies by
  the transpose directly — and narrowing to bf16 is the identity.  In the last layer the kernel multiplies the weight
  row by the transposed tile, so each product has its two factors exchanged; that is the only law used, and it holds
  for all extended reals, so the precondition is never opened.  The logistic function of the kernel is, by
  definition, the reference's one over one plus the exponential of the negation.

  The kernel's result is read off its generated frame run (Proof/Run.lean, over Body, Blocks and Result), the
  reference's off its generated run and read-at-an-index module (Proof/RefValue.lean); both are the network
  `Funnel.net` of the same parameters at row `p`.
-/
import proofs.«116243_j9706626089657_2_alg».proof.Defs
import proofs.«116243_j9706626089657_2_alg».proof.Proof.Gen.Kernel
import proofs.«116243_j9706626089657_2_alg».proof.Proof.Gen.Kernel.Skeleton
import proofs.«116243_j9706626089657_2_alg».proof.Proof.Gen.Kernel.Launch
import proofs.«116243_j9706626089657_2_alg».proof.Proof.Gen.Kernel.Points
import proofs.«116243_j9706626089657_2_alg».proof.Proof.Gen.Kernel.Frame
import proofs.«116243_j9706626089657_2_alg».proof.Proof.Gen.KernelIdeal
import proofs.«116243_j9706626089657_2_alg».proof.Proof.Gen.KernelIdeal.Skeleton
import proofs.«116243_j9706626089657_2_alg».proof.Proof.Gen.KernelIdeal.Launch
import proofs.«116243_j9706626089657_2_alg».proof.Proof.Gen.KernelIdeal.Points
import proofs.«116243_j9706626089657_2_alg».proof.Proof.Gen.KernelIdeal.Frame
import proofs.«116243_j9706626089657_2_alg».proof.Proof.Gen.ReferenceIdeal
import proofs.«116243_j9706626089657_2_alg».proof.Proof.Gen.Pre_finite_inputs
import proofs.«116243_j9706626089657_2_alg».proof.Proof.Gen.ReferenceIdeal.Run
import proofs.«116243_j9706626089657_2_alg».proof.Proof.Gen.ReferenceIdeal.Read
import proofs.«116243_j9706626089657_2_alg».proof.Proof.Run
import proofs.«116243_j9706626089657_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: widening what was just narrowed gives the value back. -/
theorem preserves : Cert.preserves_Kernel_KernelIdeal := IdealRules.truncf_extf.statement _ .f32 .bf16

/-- Both programs end with the network's value on row `p` at entry `(p, 0)` of their results. -/
theorem algebraic : Cert.algebraic_KernelIdeal_ReferenceIdeal := by
  intro m ρ m' ρ' _ hagree
  refine ⟨fun c => Cert.KernelIdeal.Result.col m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq]
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16, h17, h18, h19, h20, h21, h22]
  funext i
  obtain ⟨p, u, rfl⟩ : ∃ (p : Fin 524288) (u : Fin 1), i = ix2 p u := ⟨i 0, i 1, eq_ix2 i⟩
  obtain rfl : u = 0 := Subsingleton.elim _ _
  exact Cert.ReferenceIdeal.RefValue.result_apply _ _ _ _ _ _ _ _ _ _ _ _ _ _ _ _ _ _ _ _ _ _ _ p

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
